-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S1024x1024 .f32) (main_arg1 : FVec F S1024x1024 .f32) (main_arg2 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S1024x1024 : Shape := ⟨2, ![1024, 1024]⟩
abbrev S8192x1024 : Shape := ⟨2, ![8192, 1024]⟩
abbrev S1024x2048 : Shape := ⟨2, ![1024, 2048]⟩
abbrev S512x1024 : Shape := ⟨2, ![512, 1024]⟩
abbrev S512x2048 : Shape := ⟨2, ![512, 2048]⟩
abbrev S512x1 : Shape := ⟨2, ![512, 1]⟩
abbrev S512x512 : Shape := ⟨2, ![512, 512]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S1024x1024, .bf16⟩
  | .hbm, ⟨5, _⟩ => ⟨S1024x2048, .bf16⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  concatenates_S1024x1024_S1024x1024_S1024x2048_d1 : Shape.Concatenates [S1024x1024, S1024x1024] S1024x2048 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  slices_S512x2048_o0_1024_S512x1024 : S512x2048.Slices ![0, 1024] S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x2048_S512x2048_1_0_0_1_n_n_wf : DotDims.WF S512x1024 S1024x2048 S512x2048 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x1024 : Shape := ⟨2, ![1024, 1024]⟩
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.AttnSpec.lean ====
/-
  The function both programs compute, over the reals.

  Inputs: a token matrix x (8192 × 1024) and two square weight matrices wq, wk (1024 × 1024), all real.
  Queries are the rows of x·wq scaled by 1/32, keys the rows of x·wk; the score of query n against key m is
  their inner product; each row of scores is turned into softmax weights (exponentials of the score minus the
  row's maximum, divided by their sum); the result is the weighted average of the rows of x.
  Written with the normalisation OUTSIDE the sum over keys: (Σ_m w(n,m)·x(m,d)) / (Σ_m w(n,m)).
-/
import Mathlib.Analysis.SpecialFunctions.Exp
import Mathlib.Algebra.BigOperators.Group.Finset.Basic
import Mathlib.Order.Fin.Basic

noncomputable section

namespace Cert.Attn

/-- Row n of x·wq, scaled by 1/32. -/
def projQ (x : Fin 8192 → Fin 1024 → ℝ) (wq : Fin 1024 → Fin 1024 → ℝ) (n : Fin 8192) (j : Fin 1024) : ℝ :=
  (∑ k : Fin 1024, x n k * wq k j) * (1 / 32)

/-- Row m of x·wk. -/
def projK (x : Fin 8192 → Fin 1024 → ℝ) (wk : Fin 1024 → Fin 1024 → ℝ) (m : Fin 8192) (j : Fin 1024) : ℝ :=
  ∑ k : Fin 1024, x m k * wk k j

/-- The score of query n against key m: the inner product of the scaled query row and the key row. -/
def score (x : Fin 8192 → Fin 1024 → ℝ) (wq wk : Fin 1024 → Fin 1024 → ℝ) (n m : Fin 8192) : ℝ :=
  ∑ j : Fin 1024, projQ x wq n j * projK x wk m j

/-- The largest score in row n. -/
def rowMax (x : Fin 8192 → Fin 1024 → ℝ) (wq wk : Fin 1024 → Fin 1024 → ℝ) (n : Fin 8192) : ℝ :=
  (Finset.univ : Finset (Fin 8192)).sup' ⟨0, Finset.mem_univ _⟩ (score x wq wk n)

/-- The unnormalised softmax weight of key m for query n. -/
def wgt (x : Fin 8192 → Fin 1024 → ℝ) (wq wk : Fin 1024 → Fin 1024 → ℝ) (n m : Fin 8192) : ℝ :=
  Real.exp (score x wq wk n m - rowMax x wq wk n)

/-- The attention output at row n, column d. -/
def attn (x : Fin 8192 → Fin 1024 → ℝ) (wq wk : Fin 1024 → Fin 1024 → ℝ) (n : Fin 8192) (d : Fin 1024) : ℝ :=
  (∑ m : Fin 8192, wgt x wq wk n m * x m d) / (∑ m : Fin 8192, wgt x wq wk n m)

end Cert.Attn

end
-- ==== Proof.Finite.lean ====
/-
  From the precondition to real entries.

  The precondition's function is the conjunction, over the three inputs, of "every entry has absolute value
  below +∞". Read at the extended reals: if that function is constantly 1 then every entry of every input is
  neither +∞ nor −∞ (nor the junk value, which is −∞ here), hence the coercion of a real number.
-/
import proofs.«143703_j65481071410829_2_alg».proof.Pre_finite_inputs
import proofs.«143703_j65481071410829_2_alg».proof.Proof.Gen.Pre_finite_inputs
import Idealize.ShloMosaic.Lib.ReduceAll
import Idealize.ShloMosaic.Lib.ValueIdx
import Idealize.ShloMosaic.PureOps.Ideal

noncomputable section

namespace Cert.Attn.Fin

open Idealize.ShloMosaic Idealize.ShloMosaic.ValueIdx

/-- The scalar shape has one index. -/
instance : Subsingleton Cert.Pre_finite_inputs.S_.Idx := ⟨fun a b => funext fun d => d.elim0⟩

/-- An extended real whose absolute value max v (−v) compares below +∞ is neither infinity. -/
theorem ne_top_bot_of_abs_lt (v : EReal)
    (h : Ideal.cmp .olt (max v (-v)) (Ideal.ofBits .f32 0x7F800000#32) = 1#1) : v ≠ ⊤ ∧ v ≠ ⊥ := by
  have ht : Ideal.ofBits .f32 0x7F800000#32 = ⊤ := by simp [Ideal.ofBits, Ideal.ieee]
  rw [ht] at h
  have hlt : max v (-v) < ⊤ := by
    by_contra hn
    simp [Ideal.cmp, hn] at h
  constructor
  · rintro rfl
    simp at hlt
  · rintro rfl
    simp at hlt

/-- One conjunct of the precondition: if the and-reduction over all entries of "|a| < +∞" is 1, every entry
    of a is a real number. -/
theorem real_of_all {S : Shape} {axes : List (Fin S.rank)}
    (bc : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32)
    (h : Host.reduce IntOp.andi
          (cmpf .olt (Host.absf a)
            (broadcastInDim S ![] bc (constant (F := Ideal) Cert.Pre_finite_inputs.S_ .f32 0x7F800000#32)))
          (constantI Cert.Pre_finite_inputs.S_ 1 1#1) hr hu ix0 = 1#1) (i : S.Idx) :
    a i = (((a i).toReal : ℝ) : EReal) := by
  have e := Host.reduce_andi_all _ _ hr hu ix0 h i
  have e' : Ideal.cmp .olt (max (a i) (-(a i))) (Ideal.ofBits .f32 0x7F800000#32) = 1#1 := e
  obtain ⟨h1, h2⟩ := ne_top_bot_of_abs_lt _ e'
  exact (EReal.coe_toReal h1 h2).symm

/-- If the precondition's function is all ones at Ideal, every entry of each input is a real number. -/
theorem reals_of_pre [Cert.Pre_finite_inputs.Facts]
    (a0 a1 : FVec Ideal Cert.Pre_finite_inputs.S1024x1024 .f32) (a2 : FVec Ideal Cert.Pre_finite_inputs.S8192x1024 .f32)
    (h : Cert.Pre_finite_inputs.fn (F := Ideal) a0 a1 a2 = fun _ => 1#1) :
    (∃ wq : Fin 1024 → Fin 1024 → ℝ, ∀ k j, a0 (ix2 k j) = ((wq k j : ℝ) : EReal))
    ∧ (∃ wk : Fin 1024 → Fin 1024 → ℝ, ∀ k j, a1 (ix2 k j) = ((wk k j : ℝ) : EReal))
    ∧ (∃ x : Fin 8192 → Fin 1024 → ℝ, ∀ n k, a2 (ix2 n k) = ((x n k : ℝ) : EReal)) := by
  have h0 := congrFun h ix0
  unfold Cert.Pre_finite_inputs.fn at h0
  dsimp only at h0
  obtain ⟨h01, h2⟩ := IntOp.andi_eq_one.1 h0
  obtain ⟨h0', h1⟩ := IntOp.andi_eq_one.1 h01
  exact ⟨⟨fun k j => (a0 (ix2 k j)).toReal, fun k j => real_of_all _ _ _ a0 h0' (ix2 k j)⟩,
    ⟨fun k j => (a1 (ix2 k j)).toReal, fun k j => real_of_all _ _ _ a1 h1 (ix2 k j)⟩,
    ⟨fun n k => (a2 (ix2 n k)).toReal, fun n k => real_of_all _ _ _ a2 h2 (ix2 n k)⟩⟩

end Cert.Attn.Fin

end
-- ==== Proof.RefValue.lean ====
/-
  The reference program's result, index by index, is the specification.

  With real-valued inputs every stage of the reference, read at an index, is the coercion of a real number:
  the two projections, the scores (scaled by 1/32 after the inner product, where the specification scales the
  query row before it), the row maximum (a fold of max from −∞ over a nonempty row), the exponentials, their
  row sum (positive, so the division is multiplication by the inverse) and the final weighted sum.
-/
import proofs.«143703_j65481071410829_2_alg».proof.Proof.Gen.ReferenceIdeal.Read
import proofs.«143703_j65481071410829_2_alg».proof.Proof.AttnSpec
import Idealize.ShloMosaic.Lib.ValueIdx
import Idealize.ShloMosaic.PureOps.Ideal.Laws

noncomputable section

namespace Cert.Attn.Ref

open Idealize.ShloMosaic Idealize.ShloMosaic.ValueIdx Cert.ReferenceIdeal

/-! ## Constants and coercions -/

/-- The word 0x3D000000 denotes 1/32. -/
theorem ofBits_inv32 : Ideal.ofBits .f32 0x3D000000#32 = ((1 / 32 : ℝ) : EReal) := by
  simp [Ideal.ofBits, Ideal.ieee, -EReal.coe_mul]; norm_num

/-- The word 0xFF800000 denotes −∞. -/
theorem ofBits_neg_inf : Ideal.ofBits .f32 0xFF800000#32 = ⊥ := by
  simp [Ideal.ofBits, Ideal.ieee]

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- From −∞, the fold of max over a nonempty finite family of reals is the coercion of their supremum. -/
theorem fold_max_bot_coe {ι : Type} (s : Finset ι) (H : s.Nonempty) (g : ι → ℝ) :
    s.fold max (⊥ : EReal) (fun k => ((g k : ℝ) : EReal)) = ((s.sup' H g : ℝ) : EReal) := by
  apply le_antisymm
  · rw [Finset.fold_max_le]
    exact ⟨bot_le, fun k hk => EReal.coe_le_coe_iff.2 (Finset.le_sup' g hk)⟩
  · obtain ⟨k, hk, e⟩ := Finset.exists_mem_eq_sup' H g
    rw [Finset.le_fold_max]
    exact Or.inr ⟨k, hk, by rw [e]⟩

/-! ## The index functions of the stages, at coordinates -/

theorem lidx_v0 (n : Fin 8192) (j k : Fin 1024) : Read.lidx_main_v0 (ix2 n j) k = ix2 n k :=
  funext fun a => Fin.ext (by match a with | ⟨0, _⟩ => rfl | ⟨1, _⟩ => rfl)
theorem ridx_v0 (n : Fin 8192) (j k : Fin 1024) : Read.ridx_main_v0 (ix2 n j) k = ix2 k j :=
  funext fun a => Fin.ext (by match a with | ⟨0, _⟩ => rfl | ⟨1, _⟩ => rfl)
theorem lidx_v1 (n : Fin 8192) (j k : Fin 1024) : Read.lidx_main_v1 (ix2 n j) k = ix2 n k :=
  funext fun a => Fin.ext (by match a with | ⟨0, _⟩ => rfl | ⟨1, _⟩ => rfl)
theorem ridx_v1 (n : Fin 8192) (j k : Fin 1024) : Read.ridx_main_v1 (ix2 n j) k = ix2 k j :=
  funext fun a => Fin.ext (by match a with | ⟨0, _⟩ => rfl | ⟨1, _⟩ => rfl)
theorem lidx_v2 (n m : Fin 8192) (j : Fin 1024) : Read.lidx_main_v2 (ix2 n m) j = ix2 n j :=
  funext fun a => Fin.ext (by match a with | ⟨0, _⟩ => rfl | ⟨1, _⟩ => rfl)
theorem ridx_v2 (n m : Fin 8192) (j : Fin 1024) : Read.ridx_main_v2 (ix2 n m) j = ix2 m j :=
  funext fun a => Fin.ext (by match a with | ⟨0, _⟩ => rfl | ⟨1, _⟩ => rfl)
theorem idx_v8_v9 (n m : Fin 8192) : Read.idx_main_v8 (Read.idx_main_v9 (ix2 n m)) = ix1 n :=
  funext fun a => Fin.ext (by match a with | ⟨0, _⟩ => rfl)
theorem idx_v12 (n k : Fin 8192) : Read.idx_main_v12 (ix1 n) k = ix2 n k :=
  funext fun a => Fin.ext (by match a with | ⟨0, _⟩ => rfl | ⟨1, _⟩ => rfl)
theorem idx_v13_v14 (n m : Fin 8192) : Read.idx_main_v13 (Read.idx_main_v14 (ix2 n m)) = ix1 n :=
  funext fun a => Fin.ext (by match a with | ⟨0, _⟩ => rfl)
theorem lidx_v16 (n : Fin 8192) (d : Fin 1024) (m : Fin 8192) : Read.lidx_main_v16 (ix2 n d) m = ix2 n m :=
  funext fun a => Fin.ext (by match a with | ⟨0, _⟩ => rfl | ⟨1, _⟩ => rfl)
theorem ridx_v16 (n : Fin 8192) (d : Fin 1024) (m : Fin 8192) : Read.ridx_main_v16 (ix2 n d) m = ix2 m d :=
  funext fun a => Fin.ext (by match a with | ⟨0, _⟩ => rfl | ⟨1, _⟩ => rfl)

/-- Row index n with column k put back on the dropped axis is (n, k). -/
theorem lift_row (h : S8192x8192.Reduces [1] S8192) (n : Fin 8192) (k : Fin (S8192x8192.size 1)) :
    h.lift (ix1 n) k = ix2 n (⟨k.val, k.isLt⟩ : Fin 8192) := by
  funext c; apply Fin.ext
  fin_cases c <;> rfl

/-- A max-reduce from −∞ along the rows of an array whose row n holds the reals g: at n, the supremum of g. -/
theorem rowmax_reduce (h' : S8192x8192.ReducesTo [1] S8192) (hu : 0 < S_.numel) (y : S8192x8192.Idx → EReal)
    (init : S_.Idx → EReal) (hinit : ∀ i, init i = ⊥) (g : Fin 8192 → ℝ) (n : Fin 8192)
    (hy : ∀ m : Fin 8192, y (ix2 n m) = ((g m : ℝ) : EReal)) :
    Host.reduce (FloatOps.maximumf (F := Ideal) (φ := .f32)) y init h' hu (ix1 n)
      = (((Finset.univ : Finset (Fin 8192)).sup' ⟨0, Finset.mem_univ _⟩ g : ℝ) : EReal) := by
  have hR : S8192x8192.Reduces [1] S8192 := by decide
  rw [Host.reduce_eq_fold_single (FloatOps.maximumf (F := Ideal) (φ := .f32)) y init h' hR hu (ix1 n)]
  have hf : (y ∘ hR.lift (ix1 n)) = fun k : Fin 8192 => ((g k : ℝ) : EReal) :=
    funext fun k => by
      show y (hR.lift (ix1 n) k) = _
      rw [lift_row hR n k]
      exact hy ⟨k.val, k.isLt⟩
  rw [hf, hinit]
  exact fold_max_bot_coe Finset.univ ⟨0, Finset.mem_univ _⟩ g

/-! ## The stages at an index -/

section Stages

variable [Cert.ReferenceIdeal.Facts]
variable (x0 x1 : (⟨S1024x1024, .f32⟩ : BufTy).Contents (Elt Ideal)) (x2 : (⟨S8192x1024, .f32⟩ : BufTy).Contents (Elt Ideal))
variable (wq wk : Fin 1024 → Fin 1024 → ℝ) (x : Fin 8192 → Fin 1024 → ℝ)

/-- The query projection x·wq at (n, j). -/
theorem v0_eq (h0 : ∀ k j, x0 (ix2 k j) = ((wq k j : ℝ) : EReal)) (h2 : ∀ n k, x2 (ix2 n k) = ((x n k : ℝ) : EReal))
    (n : Fin 8192) (j : Fin 1024) :
    Read.val_main_v0 (F := Ideal) x0 x2 (ix2 n j) = ((∑ k : Fin 1024, x n k * wq k j : ℝ) : EReal) := by
  rw [Read.val_main_v0_apply, coe_sum]
  refine Finset.sum_congr rfl fun k _ => ?_
  rw [lidx_v0, ridx_v0, h2, h0, EReal.coe_mul]

/-- The key projection x·wk at (m, j). -/
theorem v1_eq (h1 : ∀ k j, x1 (ix2 k j) = ((wk k j : ℝ) : EReal)) (h2 : ∀ n k, x2 (ix2 n k) = ((x n k : ℝ) : EReal))
    (m : Fin 8192) (j : Fin 1024) :
    Read.val_main_v1 (F := Ideal) x1 x2 (ix2 m j) = ((Cert.Attn.projK x wk m j : ℝ) : EReal) := by
  rw [Read.val_main_v1_apply, Cert.Attn.projK, coe_sum]
  refine Finset.sum_congr rfl fun k _ => ?_
  rw [lidx_v1, ridx_v1, h2, h1, EReal.coe_mul]

/-- The scaled score at (n, m): the inner product of the two projections' rows, times 1/32. -/
theorem v4_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n m : Fin 8192) :
    Read.val_main_v4 (F := Ideal) x0 x1 x2 (ix2 n m) = ((Cert.Attn.score x wq wk n m : ℝ) : EReal) := by
  rw [Read.val_main_v4_apply, Read.val_main_v3_apply, Read.val_main_cst_apply, Read.val_main_v2_apply,
    Ideal.mulf_def, Ideal.ofBits_def, ofBits_inv32]
  have e : ∀ j : Fin 1024, Read.val_main_v0 (F := Ideal) x0 x2 (Read.lidx_main_v2 (ix2 n m) j)
        * Read.val_main_v1 (F := Ideal) x1 x2 (Read.ridx_main_v2 (ix2 n m) j)
      = (((∑ k : Fin 1024, x n k * wq k j) * Cert.Attn.projK x wk m j : ℝ) : EReal) := fun j => by
    rw [lidx_v2, ridx_v2, v0_eq x0 x2 wq x h0 h2, v1_eq x1 x2 wk x h1 h2, EReal.coe_mul]
  rw [Finset.sum_congr rfl fun j _ => e j, ← coe_sum, ← EReal.coe_mul]
  congr 1
  rw [Cert.Attn.score, Finset.sum_mul]
  refine Finset.sum_congr rfl fun j _ => ?_
  rw [Cert.Attn.projQ]
  ring

/-- The max-reduce from −∞ over row n of the scores is the row maximum. -/
theorem v5_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n : Fin 8192) :
    Read.val_main_v5 (F := Ideal) x0 x1 x2 (ix1 n) = ((Cert.Attn.rowMax x wq wk n : ℝ) : EReal) := by
  unfold Read.val_main_v5 Cert.Attn.rowMax
  have hy := v4_eq x0 x1 x2 wq wk x h0 h1 h2 n
  generalize Read.val_main_v4 (F := Ideal) x0 x1 x2 = y at hy ⊢
  exact rowmax_reduce _ _ y _ (fun i => by rw [Read.val_main_cst_0_apply, Ideal.ofBits_def, ofBits_neg_inf])
    (Cert.Attn.score x wq wk n) n hy

/-- The maximum with the −∞ broadcast leaves the row maximum. -/
theorem v7_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n : Fin 8192) :
    Read.val_main_v7 (F := Ideal) x0 x1 x2 (ix1 n) = ((Cert.Attn.rowMax x wq wk n : ℝ) : EReal) := by
  rw [Read.val_main_v7_apply, Read.val_main_v6_apply, Read.val_main_cst_1_apply, v5_eq x0 x1 x2 wq wk x h0 h1 h2,
    Ideal.maximumf_def, Ideal.ofBits_def, ofBits_neg_inf]
  exact max_bot_left _

/-- The row maximum broadcast along the row. -/
theorem v9_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n m : Fin 8192) :
    Read.val_main_v9 (F := Ideal) x0 x1 x2 (ix2 n m) = ((Cert.Attn.rowMax x wq wk n : ℝ) : EReal) := by
  rw [Read.val_main_v9_apply, Read.val_main_v8_apply, idx_v8_v9, v7_eq x0 x1 x2 wq wk x h0 h1 h2]

/-- The exponential of the score minus the row maximum: the unnormalised weight. -/
theorem v11_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n m : Fin 8192) :
    Read.val_main_v11 (F := Ideal) x0 x1 x2 (ix2 n m) = ((Cert.Attn.wgt x wq wk n m : ℝ) : EReal) := by
  rw [Read.val_main_v11_apply, Read.val_main_v10_apply, v4_eq x0 x1 x2 wq wk x h0 h1 h2,
    v9_eq x0 x1 x2 wq wk x h0 h1 h2, Ideal.subf_def, Ideal.hostUnary_exp_def, ← EReal.coe_sub, Ideal.exp_coe]
  rfl

/-- The add-reduce from 0 over row n of the weights is their sum. -/
theorem v12_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n : Fin 8192) :
    Read.val_main_v12 (F := Ideal) x0 x1 x2 (ix1 n) = ((∑ m : Fin 8192, Cert.Attn.wgt x wq wk n m : ℝ) : EReal) := by
  rw [Read.val_main_v12_apply, Read.val_main_cst_2_apply, Ideal.ofBits_def, Ideal.ofBits_zero_f32, zero_add, coe_sum]
  refine Finset.sum_congr rfl fun m _ => ?_
  rw [idx_v12, v11_eq x0 x1 x2 wq wk x h0 h1 h2]

/-- The row sum broadcast along the row. -/
theorem v14_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n m : Fin 8192) :
    Read.val_main_v14 (F := Ideal) x0 x1 x2 (ix2 n m) = ((∑ m : Fin 8192, Cert.Attn.wgt x wq wk n m : ℝ) : EReal) := by
  rw [Read.val_main_v14_apply, Read.val_main_v13_apply, idx_v13_v14, v12_eq x0 x1 x2 wq wk x h0 h1 h2]

/-- The row sum of the weights is positive: every weight is an exponential. -/
theorem rowSum_pos (n : Fin 8192) : 0 < ∑ m : Fin 8192, Cert.Attn.wgt x wq wk n m :=
  Finset.sum_pos (fun m _ => Real.exp_pos _) ⟨0, Finset.mem_univ _⟩

/-- The normalised weight: the divisor is a nonzero real, so the quotient is the product with its inverse. -/
theorem v15_eq (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n m : Fin 8192) :
    Read.val_main_v15 (F := Ideal) x0 x1 x2 (ix2 n m)
      = ((Cert.Attn.wgt x wq wk n m * (1 / ∑ m : Fin 8192, Cert.Attn.wgt x wq wk n m) : ℝ) : EReal) := by
  rw [Read.val_main_v15_apply, v11_eq x0 x1 x2 wq wk x h0 h1 h2, v14_eq x0 x1 x2 wq wk x h0 h1 h2,
    Ideal.hostDivf_def, Ideal.div_coe (rowSum_pos wq wk x n).ne', ← EReal.coe_mul]

end Stages

/-- With real-valued inputs the reference's result at (n, d) is the specification's value. -/
theorem ref_eq [Cert.ReferenceIdeal.Facts]
    (x0 x1 : (⟨S1024x1024, .f32⟩ : BufTy).Contents (Elt Ideal)) (x2 : (⟨S8192x1024, .f32⟩ : BufTy).Contents (Elt Ideal))
    (wq wk : Fin 1024 → Fin 1024 → ℝ) (x : Fin 8192 → Fin 1024 → ℝ)
    (h0 : ∀ k j, x0 (ix2 k j) = ((wq k j : ℝ) : EReal)) (h1 : ∀ k j, x1 (ix2 k j) = ((wk k j : ℝ) : EReal))
    (h2 : ∀ n k, x2 (ix2 n k) = ((x n k : ℝ) : EReal)) (n : Fin 8192) (d : Fin 1024) :
    Cert.ReferenceIdeal.Read.val_main_v16 (F := Ideal) x0 x1 x2 (ix2 n d) = ((Cert.Attn.attn x wq wk n d : ℝ) : EReal) := by
  rw [Read.val_main_v16_apply]
  have e : ∀ m : Fin 8192, Read.val_main_v15 (F := Ideal) x0 x1 x2 (Read.lidx_main_v16 (ix2 n d) m)
        * x2 (Read.ridx_main_v16 (ix2 n d) m)
      = ((Cert.Attn.wgt x wq wk n m * (1 / ∑ m : Fin 8192, Cert.Attn.wgt x wq wk n m) * x m d : ℝ) : EReal) := fun m => by
    rw [lidx_v16, ridx_v16, v15_eq x0 x1 x2 wq wk x h0 h1 h2, h2, ← EReal.coe_mul]
  rw [Finset.sum_congr rfl fun m _ => e m, ← coe_sum]
  congr 1
  rw [Cert.Attn.attn, Finset.sum_div]
  refine Finset.sum_congr rfl fun m _ => ?_
  ring

end Cert.Attn.Ref

end
-- ==== Proof.K.R0.lean ====
/-
  Region 0 of the program (the projection kernel, pipeline 0), at a PARAMETER `V`: the TensorCore's buffer
  contents when the region is entered. Per window its block at a grid point read off `V`; what the body leaves in
  each of its two output buffers as a closed function of the two input blocks; the body's triple; the proof data of
  the pipeline; and the body obligation at every grid point. Everything is stated at any float interpretation `F`.
-/
import proofs.«143703_j65481071410829_2_alg».proof.Proof.Gen.Kernel.Launch
import proofs.«143703_j65481071410829_2_alg».proof.Proof.Gen.Kernel.Skeleton
import proofs.«143703_j65481071410829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an unfetched point has
    the block index of the point before it, the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise: its index map is constant, so it is fetched at the first point only and every later
    point finds the block the first one fetched, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0
abbrev r0_1 : Rect S1024x2048 := Rect.unit (s := S1024x2048) ![0, 0] S1024x2048.size inb_S1024x2048_S1024x2048_0_0

/-! ## What the body leaves in each output window's buffer -/

/-- Window 2's staging buffer after the body, from the input windows' blocks: its one store as a piece. -/
def out0_2 (x0 : Vec F S512x1024 .bf16) (x1 : Vec F S1024x2048 .bf16) : Vec F S512x1024 .f32 :=
  View.canon [⟨r0_0, k0_pay2 (View.ld x0 r0_0) (View.ld x1 r0_1)⟩]

/-- Window 3's staging buffer after the body, from the input windows' blocks: its one store as a piece. -/
def out0_3 (x0 : Vec F S512x1024 .bf16) (x1 : Vec F S1024x2048 .bf16) : Vec F S512x1024 .f32 :=
  View.canon [⟨r0_0, k0_pay3 (View.ld x0 r0_0) (View.ld x1 r0_1)⟩]

/-- The one store of an output window is of the whole buffer, so it covers it. -/
theorem cover0_2 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

theorem cover0_3 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The kernel body on whole staging memrefs, the inputs' at read contents `x0`, `x1` and the outputs' at anything,
    runs to the continuation holding the inputs' as they were and the outputs' at `out0_2 x0 x1`, `out0_3 x0 x1`. -/
theorem sound_kernel0 (c : Dev nD) (E : Set ℕ) (i : grid0.Coords)
    (arg0 : Memref sig .tc .vmem S512x1024 .bf16) (harg0 : arg0.IsWhole) (arg1 : Memref sig .tc .vmem S1024x2048 .bf16) (harg1 : arg1.IsWhole)
    (arg2 : Memref sig .tc .vmem S512x1024 .f32) (harg2 : arg2.IsWhole) (arg3 : Memref sig .tc .vmem S512x1024 .f32) (harg3 : arg3.IsWhole)
    (x0 : Vec F S512x1024 .bf16) (x1 : Vec F S1024x2048 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and each output's at `out0_W` of the two input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
/-
  The second kernel region (the attention kernel over a 16 × 16 grid: axis 0 the query block, axis 1 the key block)
  at a parameter `V`, the buffers' contents when the region is entered: its windows' blocks, the two branch
  conditions of its body (first key block: the running state is reset; last key block: the result is written) in
  closed form over the grid, where its output window is idle, and the names of the memrefs the body is called with.
-/
import proofs.«143703_j65481071410829_2_alg».proof.Proof.Gen.Kernel.Launch
import proofs.«143703_j65481071410829_2_alg».proof.Proof.Gen.Kernel.Skeleton
import proofs.«143703_j65481071410829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched once per sixteen points: in between its block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first key block" (grid coordinate 1 is 0), as the body computes it: there the running maximum, the
    running denominator and the running numerator are reset. -/
abbrev cond1_0 (i : grid1.Coords) : Prop := (Scalar.cmpi .ne (Scalar.extui (Scalar.cmpi .eq (BitVec.ofNat 32 (i 1).val) 0#32)) 0#32) = 1#1
/-- It holds exactly at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block" (grid coordinate 1 is 15): there the quotient is stored into the output block. -/
abbrev cond1_1 (i : grid1.Coords) : Prop := k1_cond2 i = 1#1
/-- It holds exactly at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block nothing is stored into the output block: the window is idle there, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- At the last key block the output block is stored. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S512x1024 .f32 := (Memref.whole cc1_stg3_0 : Memref sig .tc .vmem S512x1024 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The three scratch buffers: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- A scoped buffer the region does not use (a staging buffer of the other region), whole at some contents. -/
abbrev oth (c : Dev nD) (b : Ref sig .tc) : sProp 𝕄 :=
  iprop(∃ f : Buf (Elt F) ((c : Thread nD τ).loc b), ((c : Thread nD τ).loc b) ↦{fullShare} f)

/-- The region's invariant before the first point, buffer by buffer: the other region's seven staging buffers and the three
    scratch buffers, each at some contents, and the generator register at some state. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

end Cert.Kernel.Hand

end
-- ==== Proof.K.R1RunA.lean ====
/-
  The attention kernel's body at the FIRST key block: the three scratch buffers are reset (maximum −∞, denominator 0, numerator 0)
  before they are read, so the run takes them at any contents; nothing is stored into the output block.
-/
import proofs.«143703_j65481071410829_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (the first key block; not the last). -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    Σ' (L3 : List (View.Piece (Elt F) S512x1024 .f32)) (LS0 : List (View.Piece (Elt F) S512x1 .f32)) (LS1 : List (View.Piece (Elt F) S512x1 .f32)),
      { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1RunB.lean ====
/-
  The attention kernel's body at a MIDDLE key block (neither the first nor the last): the running maximum, denominator and
  numerator are read at what the previous key block left, updated, and stored back; nothing is stored into the output block.
  The run's witness is the list of stores each scratch buffer ends with.
-/
import proofs.«143703_j65481071410829_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (not the first key block, not the last). -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)),
      { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1RunC.lean ====
/-
  The attention kernel's body at the LAST key block: the running state is updated as at a middle block, and then the
  numerator divided by the denominator is stored into the output block.
-/
import proofs.«143703_j65481071410829_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (the last key block; not the first). -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)),
      { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1.lean ====
/-
  The second kernel region's half of the frame, at a parameter `V` (the buffers' contents when the region is entered):
  what each case of the body leaves in the output block and in the three scratch buffers (running maximum, running
  denominator, running numerator), the accumulation over the grid's 256 positions, the invariant that carries the scratch
  contents from one position to the next, the proof data, and the body obligation.
-/
import proofs.«143703_j65481071410829_2_alg».proof.Proof.K.R1RunA
import proofs.«143703_j65481071410829_2_alg».proof.Proof.K.R1RunB
import proofs.«143703_j65481071410829_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's staging buffer (nothing is stored there: a placeholder nothing consults, the window being idle). -/
def out1_A_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's stores into scratch buffer 0 cover it. -/
theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y

/-- What case A leaves in scratch buffer 0. -/
def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into scratch buffer 1 cover it. -/
theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1.size (by sl_kernel_rfl) y

/-- What case A leaves in scratch buffer 1. -/
def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into scratch buffer 2 cover it. -/
theorem scover1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) (y : S512x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S512x1024.size (by sl_kernel_rfl) y

/-- What case A leaves in scratch buffer 2. -/
def sout1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output block's staging buffer (nothing is stored there: a placeholder nothing consults, the window being idle). -/
def out1_B_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's stores into scratch buffer 0 cover it. -/
theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y

/-- What case B leaves in scratch buffer 0. -/
def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into scratch buffer 1 cover it. -/
theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl) y

/-- What case B leaves in scratch buffer 1. -/
def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into scratch buffer 2 cover it. -/
theorem scover1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl) y

/-- What case B leaves in scratch buffer 2. -/
def sout1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- At the last key block the one store into the output block covers it. -/
theorem cover1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y

/-- What case C leaves in the output block's staging buffer. -/
def out1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's stores into scratch buffer 0 cover it. -/
theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y

/-- What case C leaves in scratch buffer 0. -/
def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into scratch buffer 1 cover it. -/
theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y

/-- What case C leaves in scratch buffer 1. -/
def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into scratch buffer 2 cover it. -/
theorem scover1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y

/-- What case C leaves in scratch buffer 2. -/
def sout1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output block and the scratch buffers hold after each point -/

/-- THE ACCUMULATION. After the body at position `n` of the grid: the output block's staging buffer, then the running maximum,
    the running denominator and the running numerator — the case the position is in (first key block, middle, last), run on
    the point's input blocks and, away from a first key block, on what the position before left in the three scratch buffers. -/
def outsAt1 (c : Dev nD) : (n : ℕ) → n < cfg1.N → Vec F S512x1024 .f32 × Vec F S512x1 .f32 × Vec F S512x1 .f32 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key block. -/
theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle key block: over what the position before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key block: over what the position before left. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch buffer holds anything; afterwards the
    three scratch buffers hold what the position before left in them; the other region's staging buffers and the generator
    register ride along untouched. -/
def PhiS1 (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
        ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
        ∗ (∃ r, prngReg c r)) := rfl

theorem PhiS1_pos (c : Dev nD) (n : ℕ) (h : n ≤ cfg1.N) (hz : n ≠ 0) :
    PhiS1 V c n h = iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2))
        ∗ (∃ r, prngReg c r)) := by
  cases n with
  | zero => exact absurd rfl hz
  | succ n => rfl

/-! ## The pipeline's proof data -/

/-- The arrays as the region finds them; after the body at a point each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the position modulo 16 says which case the point is in;
    the invariant hands the body the three scratch buffers at what the position before left (at anything before the first
    point) and takes them back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · by_cases h1 : t.val % 16 = 15
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      · rw [PhiS1_castSucc V c t, PhiS1_pos V c _ _ hz]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      · rw [PhiS1_castSucc V c t, PhiS1_pos V c _ _ hz]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the scratch buffers' named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ho1, Ho2, Ho3, Ho4, Ho5, Ho6, Ho7, HS0, HS1, HS2⟩, Hg⟩
  isplitl [Ho1 Ho2 Ho3 Ho4 Ho5 Ho6 Ho7 HS0 HS1 HS2]
  ·
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi1_out V c _ (by rw [Fin.val_last]; have : cfg1.N = 256 := N_1; omega)

end Cert.Kernel.Hand

end
-- ==== Proof.K.Run.lean ====
/-
  The run of the whole program over named buffer contents: the contents of every unscoped buffer at each segment
  boundary as a fold from the launch memory (a host stretch's `StableHlo.after`; a region's arrays at what its
  write-backs leave), each argument array read back through the fold to its launch contents, the two pipelines'
  proof data each at its region's entry contents, the host stretch and the two regions as segments over the thread
  state "every unscoped buffer at the boundary's contents, the generator register at some state, nothing owed", and
  the two conclusions: every argument ends as launched, and the result array ends at what region 1's write-backs
  leave. Stated at any float interpretation `F`.
-/
import proofs.«143703_j65481071410829_2_alg».proof.Proof.K.R0
import proofs.«143703_j65481071410829_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. No host operation lies between the two regions, so these are also
    region 1's entry contents. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and neither region stages one, so the fold at
    an argument's buffer walks back to the launch memory -/

/-- No host operation writes reference `b` when `b` is none of the four references they write. -/
theorem W1_of_not_written (c : Dev nD) (b : Ref sig .tc)
    (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide) (by decide) (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide) (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide) (by decide) (by decide)
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2` (what region 1 is
    entered from). Its arrays split out of the unscoped buffers and put back at the exit contents; the generator
    register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch
    reads at the end). As region 0, but the region's invariant is its own: it is entered from the scoped rest and
    the generator register (`hin1`) and gives them back at the last point (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (fun w => A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (show (Pipeline.ΦA spec1 c : sProp 𝕄) ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN, at any post `Q` that follows from the final memory agreeing with `W3` on every unscoped buffer: at the
    compiled mesh, from any memory with zero counters, every weakly fair execution of @main on the TensorCores
    terminates, nothing faulting, and every final state satisfies `Q`. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE FRAME, at any `F`: every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩

/-- THE RUN WITH ITS VALUE, at any `F`: every final state has the result array at what region 1's write-backs
    leave in its window 3 (whose array it is), and the three argument arrays as launched. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_v5 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩

end Run

end Cert.Kernel.Hand

end
-- ==== Proof.KI.R0.lean ====
/-
  Region 0 of the program (the projection kernel, pipeline 0), at a PARAMETER `V`: the TensorCore's buffer
  contents when the region is entered. Per window its block at a grid point read off `V`; what the body leaves in
  each of its two output buffers as a closed function of the two input blocks; the body's triple; the proof data of
  the pipeline; and the body obligation at every grid point. Everything is stated at any float interpretation `F`.
-/
import proofs.«143703_j65481071410829_2_alg».proof.Proof.Gen.KernelIdeal.Launch
import proofs.«143703_j65481071410829_2_alg».proof.Proof.Gen.KernelIdeal.Skeleton
import proofs.«143703_j65481071410829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an unfetched point has
    the block index of the point before it, the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise: its index map is constant, so it is fetched at the first point only and every later
    point finds the block the first one fetched, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0
abbrev r0_1 : Rect S1024x2048 := Rect.unit (s := S1024x2048) ![0, 0] S1024x2048.size inb_S1024x2048_S1024x2048_0_0

/-! ## What the body leaves in each output window's buffer -/

/-- Window 2's staging buffer after the body, from the input windows' blocks: its one store as a piece. -/
def out0_2 (x0 : Vec F S512x1024 .bf16) (x1 : Vec F S1024x2048 .bf16) : Vec F S512x1024 .f32 :=
  View.canon [⟨r0_0, k0_pay2 (View.ld x0 r0_0) (View.ld x1 r0_1)⟩]

/-- Window 3's staging buffer after the body, from the input windows' blocks: its one store as a piece. -/
def out0_3 (x0 : Vec F S512x1024 .bf16) (x1 : Vec F S1024x2048 .bf16) : Vec F S512x1024 .f32 :=
  View.canon [⟨r0_0, k0_pay3 (View.ld x0 r0_0) (View.ld x1 r0_1)⟩]

/-- The one store of an output window is of the whole buffer, so it covers it. -/
theorem cover0_2 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

theorem cover0_3 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The kernel body on whole staging memrefs, the inputs' at read contents `x0`, `x1` and the outputs' at anything,
    runs to the continuation holding the inputs' as they were and the outputs' at `out0_2 x0 x1`, `out0_3 x0 x1`. -/
theorem sound_kernel0 (c : Dev nD) (E : Set ℕ) (i : grid0.Coords)
    (arg0 : Memref sig .tc .vmem S512x1024 .bf16) (harg0 : arg0.IsWhole) (arg1 : Memref sig .tc .vmem S1024x2048 .bf16) (harg1 : arg1.IsWhole)
    (arg2 : Memref sig .tc .vmem S512x1024 .f32) (harg2 : arg2.IsWhole) (arg3 : Memref sig .tc .vmem S512x1024 .f32) (harg3 : arg3.IsWhole)
    (x0 : Vec F S512x1024 .bf16) (x1 : Vec F S1024x2048 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and each output's at `out0_W` of the two input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/-
  The second kernel region (the attention kernel over a 16 × 16 grid: axis 0 the query block, axis 1 the key block)
  at a parameter `V`, the buffers' contents when the region is entered: its windows' blocks, the two branch
  conditions of its body (first key block: the running state is reset; last key block: the result is written) in
  closed form over the grid, where its output window is idle, and the names of the memrefs the body is called with.
-/
import proofs.«143703_j65481071410829_2_alg».proof.Proof.Gen.KernelIdeal.Launch
import proofs.«143703_j65481071410829_2_alg».proof.Proof.Gen.KernelIdeal.Skeleton
import proofs.«143703_j65481071410829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched once per sixteen points: in between its block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first key block" (grid coordinate 1 is 0), as the body computes it: there the running maximum, the
    running denominator and the running numerator are reset. -/
abbrev cond1_0 (i : grid1.Coords) : Prop := (Scalar.cmpi .ne (Scalar.extui (Scalar.cmpi .eq (BitVec.ofNat 32 (i 1).val) 0#32)) 0#32) = 1#1
/-- It holds exactly at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block" (grid coordinate 1 is 15): there the quotient is stored into the output block. -/
abbrev cond1_1 (i : grid1.Coords) : Prop := k1_cond2 i = 1#1
/-- It holds exactly at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block nothing is stored into the output block: the window is idle there, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- At the last key block the output block is stored. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S512x1024 .f32 := (Memref.whole cc1_stg3_0 : Memref sig .tc .vmem S512x1024 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The three scratch buffers: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- A scoped buffer the region does not use (a staging buffer of the other region), whole at some contents. -/
abbrev oth (c : Dev nD) (b : Ref sig .tc) : sProp 𝕄 :=
  iprop(∃ f : Buf (Elt F) ((c : Thread nD τ).loc b), ((c : Thread nD τ).loc b) ↦{fullShare} f)

/-- The region's invariant before the first point, buffer by buffer: the other region's seven staging buffers and the three
    scratch buffers, each at some contents, and the generator register at some state. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

end Cert.KernelIdeal.Hand

end
-- ==== Proof.KI.R1RunA.lean ====
/-
  The attention kernel's body at the FIRST key block: the three scratch buffers are reset (maximum −∞, denominator 0, numerator 0)
  before they are read, so the run takes them at any contents; nothing is stored into the output block.
-/
import proofs.«143703_j65481071410829_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (the first key block; not the last). -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    Σ' (L3 : List (View.Piece (Elt F) S512x1024 .f32)) (LS0 : List (View.Piece (Elt F) S512x1 .f32)) (LS1 : List (View.Piece (Elt F) S512x1 .f32)),
      { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1RunB.lean ====
/-
  The attention kernel's body at a MIDDLE key block (neither the first nor the last): the running maximum, denominator and
  numerator are read at what the previous key block left, updated, and stored back; nothing is stored into the output block.
  The run's witness is the list of stores each scratch buffer ends with.
-/
import proofs.«143703_j65481071410829_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (not the first key block, not the last). -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)),
      { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1RunC.lean ====
/-
  The attention kernel's body at the LAST key block: the running state is updated as at a middle block, and then the
  numerator divided by the denominator is stored into the output block.
-/
import proofs.«143703_j65481071410829_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (the last key block; not the first). -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)),
      { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1.lean ====
/-
  The second kernel region's half of the frame, at a parameter `V` (the buffers' contents when the region is entered):
  what each case of the body leaves in the output block and in the three scratch buffers (running maximum, running
  denominator, running numerator), the accumulation over the grid's 256 positions, the invariant that carries the scratch
  contents from one position to the next, the proof data, and the body obligation.
-/
import proofs.«143703_j65481071410829_2_alg».proof.Proof.KI.R1RunA
import proofs.«143703_j65481071410829_2_alg».proof.Proof.KI.R1RunB
import proofs.«143703_j65481071410829_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's staging buffer (nothing is stored there: a placeholder nothing consults, the window being idle). -/
def out1_A_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's stores into scratch buffer 0 cover it. -/
theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y

/-- What case A leaves in scratch buffer 0. -/
def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into scratch buffer 1 cover it. -/
theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1.size (by sl_kernel_rfl) y

/-- What case A leaves in scratch buffer 1. -/
def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into scratch buffer 2 cover it. -/
theorem scover1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) (y : S512x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S512x1024.size (by sl_kernel_rfl) y

/-- What case A leaves in scratch buffer 2. -/
def sout1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output block's staging buffer (nothing is stored there: a placeholder nothing consults, the window being idle). -/
def out1_B_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's stores into scratch buffer 0 cover it. -/
theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y

/-- What case B leaves in scratch buffer 0. -/
def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into scratch buffer 1 cover it. -/
theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl) y

/-- What case B leaves in scratch buffer 1. -/
def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into scratch buffer 2 cover it. -/
theorem scover1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl) y

/-- What case B leaves in scratch buffer 2. -/
def sout1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- At the last key block the one store into the output block covers it. -/
theorem cover1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y

/-- What case C leaves in the output block's staging buffer. -/
def out1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's stores into scratch buffer 0 cover it. -/
theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y

/-- What case C leaves in scratch buffer 0. -/
def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into scratch buffer 1 cover it. -/
theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y

/-- What case C leaves in scratch buffer 1. -/
def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into scratch buffer 2 cover it. -/
theorem scover1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y

/-- What case C leaves in scratch buffer 2. -/
def sout1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output block and the scratch buffers hold after each point -/

/-- THE ACCUMULATION. After the body at position `n` of the grid: the output block's staging buffer, then the running maximum,
    the running denominator and the running numerator — the case the position is in (first key block, middle, last), run on
    the point's input blocks and, away from a first key block, on what the position before left in the three scratch buffers. -/
def outsAt1 (c : Dev nD) : (n : ℕ) → n < cfg1.N → Vec F S512x1024 .f32 × Vec F S512x1 .f32 × Vec F S512x1 .f32 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key block. -/
theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle key block: over what the position before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key block: over what the position before left. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch buffer holds anything; afterwards the
    three scratch buffers hold what the position before left in them; the other region's staging buffers and the generator
    register ride along untouched. -/
def PhiS1 (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
        ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
        ∗ (∃ r, prngReg c r)) := rfl

theorem PhiS1_pos (c : Dev nD) (n : ℕ) (h : n ≤ cfg1.N) (hz : n ≠ 0) :
    PhiS1 V c n h = iprop(iprop(oth c cc0_stg0_0 ∗ oth c cc0_stg0_1 ∗ oth c cc0_stg1_0 ∗ oth c cc0_stg2_0 ∗ oth c cc0_stg2_1 ∗ oth c cc0_stg3_0 ∗ oth c cc0_stg3_1
          ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2))
        ∗ (∃ r, prngReg c r)) := by
  cases n with
  | zero => exact absurd rfl hz
  | succ n => rfl

/-! ## The pipeline's proof data -/

/-- The arrays as the region finds them; after the body at a point each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the position modulo 16 says which case the point is in;
    the invariant hands the body the three scratch buffers at what the position before left (at anything before the first
    point) and takes them back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · by_cases h1 : t.val % 16 = 15
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      · rw [PhiS1_castSucc V c t, PhiS1_pos V c _ _ hz]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      · rw [PhiS1_castSucc V c t, PhiS1_pos V c _ _ hz]
        iintro ⟨⟨⟨Ho1, Ho2, Ho3, Ho4, Ho5, Ho6, Ho7, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Ho1 Ho2 Ho3 Ho4 Ho5 Ho6 Ho7 HS0 HS1 HS2 Hg]
        · isplitl [Ho1 Ho2 Ho3 Ho4 Ho5 Ho6 Ho7 HS0 HS1 HS2]
          ·
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the scratch buffers' named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ho1, Ho2, Ho3, Ho4, Ho5, Ho6, Ho7, HS0, HS1, HS2⟩, Hg⟩
  isplitl [Ho1 Ho2 Ho3 Ho4 Ho5 Ho6 Ho7 HS0 HS1 HS2]
  ·
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi1_out V c _ (by rw [Fin.val_last]; have : cfg1.N = 256 := N_1; omega)

end Cert.KernelIdeal.Hand

end
-- ==== Proof.KI.Run.lean ====
/-
  The run of the whole program over named buffer contents: the contents of every unscoped buffer at each segment
  boundary as a fold from the launch memory (a host stretch's `StableHlo.after`; a region's arrays at what its
  write-backs leave), each argument array read back through the fold to its launch contents, the two pipelines'
  proof data each at its region's entry contents, the host stretch and the two regions as segments over the thread
  state "every unscoped buffer at the boundary's contents, the generator register at some state, nothing owed", and
  the two conclusions: every argument ends as launched, and the result array ends at what region 1's write-backs
  leave. Stated at any float interpretation `F`.
-/
import proofs.«143703_j65481071410829_2_alg».proof.Proof.KI.R0
import proofs.«143703_j65481071410829_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. No host operation lies between the two regions, so these are also
    region 1's entry contents. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and neither region stages one, so the fold at
    an argument's buffer walks back to the launch memory -/

/-- No host operation writes reference `b` when `b` is none of the four references they write. -/
theorem W1_of_not_written (c : Dev nD) (b : Ref sig .tc)
    (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide) (by decide) (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide) (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide) (by decide) (by decide)
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2` (what region 1 is
    entered from). Its arrays split out of the unscoped buffers and put back at the exit contents; the generator
    register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch
    reads at the end). As region 0, but the region's invariant is its own: it is entered from the scoped rest and
    the generator register (`hin1`) and gives them back at the last point (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (fun w => A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (show (Pipeline.ΦA spec1 c : sProp 𝕄) ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN, at any post `Q` that follows from the final memory agreeing with `W3` on every unscoped buffer: at the
    compiled mesh, from any memory with zero counters, every weakly fair execution of @main on the TensorCores
    terminates, nothing faulting, and every final state satisfies `Q`. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE FRAME, at any `F`: every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩

/-- THE RUN WITH ITS VALUE, at any `F`: every final state has the result array at what region 1's write-backs
    leave in its window 3 (whose array it is), and the three argument arrays as launched. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_v5 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩

end Run

end Cert.KernelIdeal.Hand

end
-- ==== Proof.KI.HostStage.lean ====
/-
  The host operations before the first kernel region, read at an index at the exact-arithmetic instance: rounding to a narrower
  format is the identity there, so the token array the kernels see is the token argument, and the fused weight array is the
  first weight argument in columns 0 … 1023 and the second in columns 1024 … 2047.
-/
import proofs.«143703_j65481071410829_2_alg».proof.Proof.KI.Run
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Idealize.ShloMosaic.ValueIdx Idealize.ShloMosaic.StableHlo

variable (m : (ℓ : Loc nD τ sig) → Buf (Elt Ideal) ℓ) (ρ : Dev nD → PrngReg)

/-- The token array at the first region's entry is the token argument. -/
theorem V1_v3 (c : Dev nD) (n : Fin 8192) (k : Fin 1024) :
    V1 (F := Ideal) m ρ c main_v3 (ix2 n k) = m ((c : Thread nD τ).loc main_arg2) (ix2 n k) := by
  have e : @Eq (S8192x1024.Idx → EReal) (V1 (F := Ideal) m ρ c main_v3)
      (truncf (F := Ideal) (s := S8192x1024) (φ := .f32) .bf16 (m ((c : Thread nD τ).loc main_arg2)) Cert.KernelIdeal.Facts₀.bitsLt_bf16_f32) := by
    dsimp only [V1, W1, W0, hostOps0]; after_results
  rw [e]; rfl

/-- The fused weight array at the first region's entry, as the concatenation the host computes. -/
theorem V1_v2_eq (c : Dev nD) :
    @Eq (S1024x2048.Idx → EReal) (V1 (F := Ideal) m ρ c main_v2)
      (concatenate S1024x2048 1 [⟨S1024x1024, truncf (F := Ideal) (s := S1024x1024) (φ := .f32) .bf16 (m ((c : Thread nD τ).loc main_arg0)) Cert.KernelIdeal.Facts₀.bitsLt_bf16_f32⟩,
          ⟨S1024x1024, truncf (F := Ideal) (s := S1024x1024) (φ := .f32) .bf16 (m ((c : Thread nD τ).loc main_arg1)) Cert.KernelIdeal.Facts₀.bitsLt_bf16_f32⟩] Cert.KernelIdeal.Facts₀.concatenates_S1024x1024_S1024x1024_S1024x2048_d1) := by
  dsimp only [V1, W1, W0, hostOps0]; after_results

/-- Columns 0 … 1023 of the fused weight array are the first weight argument. -/
theorem V1_v2_left (c : Dev nD) (k j : Fin 1024) :
    V1 (F := Ideal) m ρ c main_v2 (ix2 k (⟨j.val, by omega⟩ : Fin 2048)) = m ((c : Thread nD τ).loc main_arg0) (ix2 k j) := by
  rw [V1_v2_eq]
  refine (concatenate_pair_apply_left (t := S1024x2048) (s₁ := S1024x1024) (s₂ := S1024x1024) (1 : Fin S1024x2048.rank) _ _ _ (ix2 k (⟨j.val, by omega⟩ : Fin 2048)) rfl (ix2 k j) fun b => ?_).trans rfl
  match b with
  | ⟨0, _⟩ => rfl
  | ⟨1, _⟩ => rfl

/-- Columns 1024 … 2047 are the second weight argument. -/
theorem V1_v2_right (c : Dev nD) (k j : Fin 1024) :
    V1 (F := Ideal) m ρ c main_v2 (ix2 k (⟨1024 + j.val, by omega⟩ : Fin 2048)) = m ((c : Thread nD τ).loc main_arg1) (ix2 k j) := by
  rw [V1_v2_eq]
  refine (concatenate_pair_apply_right (t := S1024x2048) (s₁ := S1024x1024) (s₂ := S1024x1024) (1 : Fin S1024x2048.rank) _ _ _ (ix2 k (⟨1024 + j.val, by omega⟩ : Fin 2048)) rfl rfl (ix2 k j) (fun b hb => ?_) ?_).trans rfl
  · match b with
    | ⟨0, _⟩ => rfl
    | ⟨1, _⟩ => exact absurd rfl hb
  · show j.val + 1024 = 1024 + j.val; omega

end Cert.KernelIdeal.Val

end
-- ==== Proof.KI.Blocks.lean ====
/-
  Where the blocks sit. For both kernel regions: the printed index maps decided once over the grid (region 0: point t handles rows
  512·t … 512·t+511; region 1: point t = 16·qi + ki handles query rows 512·qi … and key rows 512·ki …), each input block's entry
  located in its array, each output block's entry located in its array, and the point whose block covers a given row.
-/
import proofs.«143703_j65481071410829_2_alg».proof.Proof.KI.R0
import proofs.«143703_j65481071410829_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## Region 0 -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row 512·t + r of an array with 8192 rows. -/
def row0 (t : Fin cfg0.N) (r : Fin 512) : Fin 8192 := ⟨512 * t.val + r.val, by have := lt_of_lt_of_eq t.isLt (show cfg0.N = 16 from N_0); have := r.isLt; omega⟩

/-- The token block at point t, entry (r, k), is row 512·t + r of the token array. -/
theorem blk0_0_read (c : Dev nD) (t : Fin cfg0.N) (r : Fin 512) (k : Fin 1024) :
    iblk0 V c 0 t (ix2 r k) = V c main_v3 (ix2 (row0 t r) k) := by
  obtain ⟨e0, e1, -⟩ := idx_facts0 t
  show V c main_v3 (((cfg0.win 0).blk t).view.emb (ix2 r k)) = V c main_v3 (ix2 (row0 t r) k)
  refine congrArg (V c main_v3) ?_
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

/-- The weight block is the whole weight array at every point. -/
theorem blk0_1_read (c : Dev nD) (t : Fin cfg0.N) (k : Fin 1024) (j : Fin 2048) :
    iblk0 V c 1 t (ix2 k j) = V c main_v2 (ix2 k j) := by
  obtain ⟨-, -, e2, e3, -⟩ := idx_facts0 t
  show V c main_v2 (((cfg0.win 1).blk t).view.emb (ix2 k j)) = V c main_v2 (ix2 k j)
  refine congrArg (V c main_v2) ?_
  funext a; apply Fin.ext
  match a with
  | ⟨0, _⟩ => show win0_1.index t (0 : Fin 2) * 1024 + 1 * k.val = k.val; omega
  | ⟨1, _⟩ => show win0_1.index t (1 : Fin 2) * 2048 + 1 * j.val = j.val; omega

/-- Entry (r, j) of output block t (either output) sits at row 512·t + r. -/
theorem emb0_2 (t : Fin cfg0.N) (r : Fin 512) (j : Fin 1024) :
    ((cfg0.win 2).blk t).view.emb (ix2 r j) = ix2 (row0 t r) j := by
  obtain ⟨-, -, -, -, e4, e5, -⟩ := idx_facts0 t
  funext a; apply Fin.ext
  match a with
  | ⟨0, _⟩ => show win0_2.index t (0 : Fin 2) * 512 + 1 * r.val = 512 * t.val + r.val; omega
  | ⟨1, _⟩ => show win0_2.index t (1 : Fin 2) * 1024 + 1 * j.val = j.val; omega

theorem emb0_3 (t : Fin cfg0.N) (r : Fin 512) (j : Fin 1024) :
    ((cfg0.win 3).blk t).view.emb (ix2 r j) = ix2 (row0 t r) j := by
  obtain ⟨-, -, -, -, -, -, e6, e7⟩ := idx_facts0 t
  funext a; apply Fin.ext
  match a with
  | ⟨0, _⟩ => show win0_3.index t (0 : Fin 2) * 512 + 1 * r.val = 512 * t.val + r.val; omega
  | ⟨1, _⟩ => show win0_3.index t (1 : Fin 2) * 1024 + 1 * j.val = j.val; omega

theorem mem_blk0_2 (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v4_0).slice (win0_2.rect t)).set ↔ _
  rw [View.set_slice_whole, Rect.mem_set_unit]
  exact Iff.rfl

theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_1).slice (win0_3.rect t)).set ↔ _
  rw [View.set_slice_whole, Rect.mem_set_unit]
  exact Iff.rfl

/-- Every row is in the output block of the point row/512, which is written back. -/
theorem cover0_arr2 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, e4, e5, -⟩ := idx_facts0 t
  have e4' : win0_2.index t (0 : Fin 2) = (i 0).val / 512 := e4
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

theorem cover0_arr3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, -, -, e6, e7⟩ := idx_facts0 t
  have e6' : win0_3.index t (0 : Fin 2) = (i 0).val / 512 := e6
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## Region 1 -/

theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-- The query row 512·(t/16) + r and the key row 512·(t%16) + cc handled at point t. -/
def rowOf (t : Fin cfg1.N) (r : Fin 512) : Fin 8192 := ⟨512 * (t.val / 16) + r.val, by have := lt_of_lt_of_eq t.isLt (show cfg1.N = 256 from N_1); have := r.isLt; omega⟩
def keyOf (t : Fin cfg1.N) (cc : Fin 512) : Fin 8192 := ⟨512 * (t.val % 16) + cc.val, by have := cc.isLt; omega⟩

theorem blk1_0_read (c : Dev nD) (t : Fin cfg1.N) (r : Fin 512) (j : Fin 1024) :
    iblk1 V c 0 t (ix2 r j) = V c main_v4_0 (ix2 (rowOf t r) j) := by
  obtain ⟨e0, e1, -⟩ := idx_facts1 t
  show V c main_v4_0 (((cfg1.win 0).blk t).view.emb (ix2 r j)) = V c main_v4_0 (ix2 (rowOf t r) j)
  refine congrArg (V c main_v4_0) ?_
  funext a; apply Fin.ext
  match a with
  | ⟨0, _⟩ => show win1_0.index t (0 : Fin 2) * 512 + 1 * r.val = 512 * (t.val / 16) + r.val; omega
  | ⟨1, _⟩ => show win1_0.index t (1 : Fin 2) * 1024 + 1 * j.val = j.val; omega

theorem blk1_1_read (c : Dev nD) (t : Fin cfg1.N) (cc : Fin 512) (j : Fin 1024) :
    iblk1 V c 1 t (ix2 cc j) = V c main_v4_1 (ix2 (keyOf t cc) j) := by
  obtain ⟨-, -, e2, e3, -⟩ := idx_facts1 t
  show V c main_v4_1 (((cfg1.win 1).blk t).view.emb (ix2 cc j)) = V c main_v4_1 (ix2 (keyOf t cc) j)
  refine congrArg (V c main_v4_1) ?_
  funext a; apply Fin.ext
  match a with
  | ⟨0, _⟩ => show win1_1.index t (0 : Fin 2) * 512 + 1 * cc.val = 512 * (t.val % 16) + cc.val; omega
  | ⟨1, _⟩ => show win1_1.index t (1 : Fin 2) * 1024 + 1 * j.val = j.val; omega

theorem blk1_2_read (c : Dev nD) (t : Fin cfg1.N) (cc : Fin 512) (d : Fin 1024) :
    iblk1 V c 2 t (ix2 cc d) = V c main_v3 (ix2 (keyOf t cc) d) := by
  obtain ⟨-, -, -, -, e4, e5, -⟩ := idx_facts1 t
  show V c main_v3 (((cfg1.win 2).blk t).view.emb (ix2 cc d)) = V c main_v3 (ix2 (keyOf t cc) d)
  refine congrArg (V c main_v3) ?_
  funext a; apply Fin.ext
  match a with
  | ⟨0, _⟩ => show win1_2.index t (0 : Fin 2) * 512 + 1 * cc.val = 512 * (t.val % 16) + cc.val; omega
  | ⟨1, _⟩ => show win1_2.index t (1 : Fin 2) * 1024 + 1 * d.val = d.val; omega

theorem emb1_3 (t : Fin cfg1.N) (r : Fin 512) (d : Fin 1024) :
    ((cfg1.win 3).blk t).view.emb (ix2 r d) = ix2 (rowOf t r) d := by
  obtain ⟨-, -, -, -, -, -, e6, e7⟩ := idx_facts1 t
  funext a; apply Fin.ext
  match a with
  | ⟨0, _⟩ => show win1_3.index t (0 : Fin 2) * 512 + 1 * r.val = 512 * (t.val / 16) + r.val; omega
  | ⟨1, _⟩ => show win1_3.index t (1 : Fin 2) * 1024 + 1 * d.val = d.val; omega

theorem mem_blk1_3 (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v5).slice (win1_3.rect t)).set ↔ _
  rw [View.set_slice_whole, Rect.mem_set_unit]
  exact Iff.rfl

/-- Every row is in the output block of the LAST key block's point of its query block, which is written back. -/
theorem cover1_arr3 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  let t : Fin cfg1.N := ⟨16 * ((i 0).val / 512) + 15, by rw [show cfg1.N = 256 from N_1]; omega⟩
  obtain ⟨-, -, -, -, -, -, e6, e7⟩ := idx_facts1 t
  have e6' : win1_3.index t (0 : Fin 2) = (16 * ((i 0).val / 512) + 15) / 16 := e6
  refine ⟨t, (flush1_3 t).mpr (by show (16 * ((i 0).val / 512) + 15) % 16 = 15; omega), ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

end Cert.KernelIdeal.Hand

end
-- ==== Proof.OnlineSoftmax.lean ====
import Idealize.ShloMosaic.PureOps.Ideal
import Mathlib.Analysis.SpecialFunctions.Exp

/-!
# Online softmax

For one query row, the keys are processed in B blocks of C columns, keeping a running maximum m,
a running denominator l and a running numerator acc.  After all blocks, acc / l is the
softmax-weighted average of the values: the rescaling factors exp (m_old - m_new) telescope.

All inputs are finite (coercions of reals); the state lives in EReal and starts at (⊥, 0, 0).
-/

namespace Cert.Attn.Online
open Idealize.ShloMosaic

noncomputable section

/-- One block's update of (running max, running denominator, running numerator). -/
def stepE {C : ℕ} (σb νb : Fin C → ℝ) (st : EReal × EReal × EReal) : EReal × EReal × EReal :=
  let rm : EReal := (Finset.univ : Finset (Fin C)).fold max ⊥ (fun c => (σb c : EReal))
  let m' : EReal := max st.1 rm
  let a : EReal := Ideal.exp (st.1 - m')
  (m', a * st.2.1 + ∑ c : Fin C, Ideal.exp ((σb c : EReal) - m'),
       a * st.2.2 + ∑ c : Fin C, Ideal.exp ((σb c : EReal) - m') * (νb c : EReal))

/-- The state after the first t blocks (all of them once t ≥ B), from (−∞, 0, 0). -/
def runE {B C : ℕ} (σ ν : Fin B → Fin C → ℝ) : ℕ → EReal × EReal × EReal
  | 0 => (⊥, 0, 0)
  | t + 1 => if h : t < B then stepE (σ ⟨t, h⟩) (ν ⟨t, h⟩) (runE σ ν t) else runE σ ν t

theorem runE_succ {B C : ℕ} (σ ν : Fin B → Fin C → ℝ) (t : ℕ) (h : t < B) :
    runE σ ν (t + 1) = stepE (σ ⟨t, h⟩) (ν ⟨t, h⟩) (runE σ ν t) := by
  rw [runE, dif_pos h]

/-! ### Coercions from ℝ to EReal of finite sums and maxima -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-- The maximum of one nonempty block of real scores. -/
def rowMax {C : ℕ} (hC : 0 < C) (σb : Fin C → ℝ) : ℝ :=
  (Finset.univ : Finset (Fin C)).sup' ⟨⟨0, hC⟩, Finset.mem_univ _⟩ σb

/-- Folding max from ⊥ over a nonempty block of finite scores gives the (finite) block maximum. -/
theorem fold_max_coe {C : ℕ} (hC : 0 < C) (σb : Fin C → ℝ) :
    (Finset.univ : Finset (Fin C)).fold max ⊥ (fun c => (σb c : EReal))
      = ((rowMax hC σb : ℝ) : EReal) := by
  have h1 : (Finset.univ : Finset (Fin C)).fold max ⊥ (fun c => (σb c : EReal))
      = (Finset.univ : Finset (Fin C)).sup (fun c => (σb c : EReal)) := rfl
  have hne : (Finset.univ : Finset (Fin C)).Nonempty := ⟨⟨0, hC⟩, Finset.mem_univ _⟩
  rw [h1, ← Finset.sup'_eq_sup hne]
  exact (Finset.apply_sup'_eq_sup'_comp hne (fun r : ℝ => (r : EReal))
    (fun x y => coe_max x y)).symm

/-! ### One step, on finite states -/

/-- The first step, from (⊥, 0, 0): the old state contributes nothing (exp ⊥ = 0). -/
theorem stepE_bot {C : ℕ} (hC : 0 < C) (σb νb : Fin C → ℝ) :
    stepE σb νb (⊥, 0, 0)
      = (((rowMax hC σb : ℝ) : EReal),
         ((∑ c : Fin C, Real.exp (σb c - rowMax hC σb) : ℝ) : EReal),
         ((∑ c : Fin C, Real.exp (σb c - rowMax hC σb) * νb c : ℝ) : EReal)) := by
  simp only [stepE, fold_max_coe hC σb, bot_sup_eq, EReal.bot_sub, Ideal.exp_bot, zero_mul,
    zero_add, ← EReal.coe_sub, Ideal.exp_coe, ← EReal.coe_mul, ← coe_sum]

/-- A later step, from a finite state. -/
theorem stepE_coe {C : ℕ} (hC : 0 < C) (σb νb : Fin C → ℝ) (M L A : ℝ) :
    stepE σb νb ((M : EReal), (L : EReal), (A : EReal))
      = (((max M (rowMax hC σb) : ℝ) : EReal),
         ((Real.exp (M - max M (rowMax hC σb)) * L
            + ∑ c : Fin C, Real.exp (σb c - max M (rowMax hC σb)) : ℝ) : EReal),
         ((Real.exp (M - max M (rowMax hC σb)) * A
            + ∑ c : Fin C, Real.exp (σb c - max M (rowMax hC σb)) * νb c : ℝ) : EReal)) := by
  simp only [stepE, fold_max_coe hC σb, ← coe_max, ← EReal.coe_sub, Ideal.exp_coe,
    ← EReal.coe_mul, ← coe_sum, ← EReal.coe_add]

/-! ### The keys seen after t blocks -/

/-- The (block, column) pairs of the first t blocks. -/
def seen (B C t : ℕ) : Finset (Fin B × Fin C) :=
  (Finset.univ.filter (fun b : Fin B => b.val < t)) ×ˢ (Finset.univ : Finset (Fin C))

theorem mem_seen {B C t : ℕ} (p : Fin B × Fin C) : p ∈ seen B C t ↔ p.1.val < t := by
  simp [seen]

theorem seen_zero {B C : ℕ} : seen B C 0 = ∅ := by
  simp [seen]

/-- A sum over the first t + 1 blocks splits into the first t blocks and block t. -/
theorem sum_seen_succ {B C t : ℕ} (h : t < B) (F : Fin B × Fin C → ℝ) :
    ∑ p ∈ seen B C (t + 1), F p = ∑ p ∈ seen B C t, F p + ∑ c : Fin C, F (⟨t, h⟩, c) := by
  have hf : (Finset.univ.filter (fun b : Fin B => b.val < t + 1))
      = insert (⟨t, h⟩ : Fin B) (Finset.univ.filter (fun b : Fin B => b.val < t)) := by
    ext b
    simp only [Finset.mem_filter, Finset.mem_univ, true_and, Finset.mem_insert, Fin.ext_iff]
    omega
  unfold seen
  rw [hf, Finset.sum_product, Finset.sum_insert (by simp), Finset.sum_product, add_comm]

/-- Changing the reference point of the exponentials from M to M' costs the factor exp (M - M'). -/
theorem rescale_sum_mul {ι : Type*} (s : Finset ι) (F G : ι → ℝ) (M M' : ℝ) :
    Real.exp (M - M') * ∑ i ∈ s, Real.exp (F i - M) * G i
      = ∑ i ∈ s, Real.exp (F i - M') * G i := by
  rw [Finset.mul_sum]
  refine Finset.sum_congr rfl fun i _ => ?_
  rw [← mul_assoc, ← Real.exp_add]
  congr 2
  ring

theorem rescale_sum {ι : Type*} (s : Finset ι) (F : ι → ℝ) (M M' : ℝ) :
    Real.exp (M - M') * ∑ i ∈ s, Real.exp (F i - M) = ∑ i ∈ s, Real.exp (F i - M') := by
  simpa using rescale_sum_mul s F (fun _ => 1) M M'

/-! ### The invariant -/

/-- After t + 1 ≤ B blocks the state is finite: the running maximum is the maximum M of the scores
seen so far (an upper bound that is attained), and the running denominator and numerator are the
sums of exp (score - M) and of exp (score - M) * value over the keys seen so far. -/
theorem run_inv {B C : ℕ} (hC : 0 < C) (σ ν : Fin B → Fin C → ℝ) :
    ∀ t, t < B → ∃ M : ℝ,
      (∀ p ∈ seen B C (t + 1), σ p.1 p.2 ≤ M) ∧ (∃ p ∈ seen B C (t + 1), σ p.1 p.2 = M) ∧
      runE σ ν (t + 1) = ((M : EReal),
        ((∑ p ∈ seen B C (t + 1), Real.exp (σ p.1 p.2 - M) : ℝ) : EReal),
        ((∑ p ∈ seen B C (t + 1), Real.exp (σ p.1 p.2 - M) * ν p.1 p.2 : ℝ) : EReal)) := by
  intro t
  induction t with
  | zero =>
    intro h
    refine ⟨rowMax hC (σ ⟨0, h⟩), ?_, ?_, ?_⟩
    · intro p hp
      have hp1 : p.1 = ⟨0, h⟩ := by
        rw [mem_seen] at hp
        exact Fin.ext (by simp only; omega)
      rw [hp1]
      exact Finset.le_sup' (σ ⟨0, h⟩) (Finset.mem_univ p.2)
    · obtain ⟨c, _, hc⟩ := Finset.exists_mem_eq_sup'
        (⟨⟨0, hC⟩, Finset.mem_univ _⟩ : (Finset.univ : Finset (Fin C)).Nonempty) (σ ⟨0, h⟩)
      exact ⟨(⟨0, h⟩, c), by rw [mem_seen]; simp, hc.symm⟩
    · have h0 : runE σ ν 0 = (⊥, 0, 0) := rfl
      rw [runE_succ σ ν 0 h, h0, stepE_bot hC, sum_seen_succ h, sum_seen_succ h, seen_zero,
        Finset.sum_empty, Finset.sum_empty, zero_add, zero_add]
  | succ t ih =>
    intro h
    obtain ⟨M, hub, ⟨p0, hp0, hp0M⟩, hrun⟩ := ih (by omega)
    refine ⟨max M (rowMax hC (σ ⟨t + 1, h⟩)), ?_, ?_, ?_⟩
    · intro p hp
      rw [mem_seen] at hp
      rcases Nat.lt_succ_iff_lt_or_eq.mp hp with hlt | heq
      · exact le_trans (hub p ((mem_seen p).mpr hlt)) (le_max_left _ _)
      · have hp1 : p.1 = ⟨t + 1, h⟩ := Fin.ext heq
        rw [hp1]
        exact le_trans (Finset.le_sup' (σ ⟨t + 1, h⟩) (Finset.mem_univ p.2)) (le_max_right _ _)
    · rcases le_total (rowMax hC (σ ⟨t + 1, h⟩)) M with hle | hle
      · refine ⟨p0, ?_, ?_⟩
        · rw [mem_seen] at hp0 ⊢; omega
        · rw [hp0M, max_eq_left hle]
      · obtain ⟨c, _, hc⟩ := Finset.exists_mem_eq_sup'
          (⟨⟨0, hC⟩, Finset.mem_univ _⟩ : (Finset.univ : Finset (Fin C)).Nonempty) (σ ⟨t + 1, h⟩)
        refine ⟨(⟨t + 1, h⟩, c), by rw [mem_seen]; simp, ?_⟩
        rw [max_eq_right hle]
        exact hc.symm
    · rw [runE_succ σ ν (t + 1) h, hrun, stepE_coe hC,
        sum_seen_succ h (fun p => Real.exp (σ p.1 p.2 - max M (rowMax hC (σ ⟨t + 1, h⟩)))),
        sum_seen_succ h
          (fun p => Real.exp (σ p.1 p.2 - max M (rowMax hC (σ ⟨t + 1, h⟩))) * ν p.1 p.2),
        rescale_sum, rescale_sum_mul]

/-! ### The concrete sizes: 16 blocks of 512 keys -/

/-- The key at flat position 512·b + c. -/
def blk (b : Fin 16) (c : Fin 512) : Fin 8192 := ⟨512 * b.val + c.val, by omega⟩

/-- Splitting a flat key position into (block, column) is a bijection. -/
def blkEquiv : Fin 16 × Fin 512 ≃ Fin 8192 where
  toFun p := blk p.1 p.2
  invFun m := (⟨m.val / 512, by omega⟩, ⟨m.val % 512, by omega⟩)
  left_inv := by
    rintro ⟨⟨b, hb⟩, ⟨c, hc⟩⟩
    refine Prod.ext (Fin.ext ?_) (Fin.ext ?_)
    · simp only [blk]; omega
    · simp only [blk]; omega
  right_inv := by
    rintro ⟨m, hm⟩
    apply Fin.ext
    simp only [blk]; omega

theorem blkEquiv_apply (p : Fin 16 × Fin 512) : blkEquiv p = blk p.1 p.2 := rfl

theorem seen_all : seen 16 512 16 = Finset.univ := by
  ext p
  simp only [mem_seen, Finset.mem_univ, iff_true]
  exact p.1.isLt

/-- MAIN THEOREM (concrete sizes). f = one row of scores, g = one column of values, both over the
8192 keys: the online recursion ends with numerator / denominator equal to the softmax-weighted
average of g, the softmax taken with the global maximum of f subtracted. -/
theorem online_softmax (f g : Fin 8192 → ℝ) :
    let st := runE (B := 16) (C := 512) (fun b c => f (blk b c)) (fun b c => g (blk b c)) 16
    Ideal.div st.2.2 st.2.1
      = (((∑ m : Fin 8192, Real.exp (f m - (Finset.univ : Finset (Fin 8192)).sup' ⟨0, Finset.mem_univ _⟩ f) * g m)
          / (∑ m : Fin 8192, Real.exp (f m - (Finset.univ : Finset (Fin 8192)).sup' ⟨0, Finset.mem_univ _⟩ f)) : ℝ) : EReal) := by
  intro st
  obtain ⟨M, hub, ⟨p0, _, hp0⟩, hrun⟩ := run_inv (B := 16) (C := 512) (by norm_num)
    (fun b c => f (blk b c)) (fun b c => g (blk b c)) 15 (by norm_num)
  have hst : st = _ := hrun
  -- the running maximum is the global maximum
  have hM : M = (Finset.univ : Finset (Fin 8192)).sup' ⟨0, Finset.mem_univ _⟩ f := by
    apply le_antisymm
    · rw [← hp0]
      exact Finset.le_sup' f (Finset.mem_univ _)
    · refine Finset.sup'_le _ _ fun m _ => ?_
      have hm := hub (blkEquiv.symm m) (by rw [seen_all]; exact Finset.mem_univ _)
      rwa [← blkEquiv_apply, Equiv.apply_symm_apply] at hm
  -- the sums over (block, column) pairs are the sums over flat positions
  have hL : ∑ p ∈ seen 16 512 (15 + 1), Real.exp (f (blk p.1 p.2) - M)
      = ∑ m : Fin 8192, Real.exp (f m - M) := by
    rw [seen_all]
    exact Equiv.sum_comp blkEquiv (fun m => Real.exp (f m - M))
  have hA : ∑ p ∈ seen 16 512 (15 + 1), Real.exp (f (blk p.1 p.2) - M) * g (blk p.1 p.2)
      = ∑ m : Fin 8192, Real.exp (f m - M) * g m := by
    rw [seen_all]
    exact Equiv.sum_comp blkEquiv (fun m => Real.exp (f m - M) * g m)
  have hpos : (0 : ℝ) < ∑ m : Fin 8192, Real.exp (f m - M) :=
    Finset.sum_pos (fun m _ => Real.exp_pos _) ⟨0, Finset.mem_univ _⟩
  rw [hst]
  simp only []
  rw [hL, hA, Ideal.div_coe hpos.ne', ← EReal.coe_mul, ← hM, mul_one_div]

end

end Cert.Attn.Online
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KI.Payload.lean ====
import proofs.«143703_j65481071410829_2_alg».proof.Proof.Gen.KernelIdeal.Skeleton
import proofs.«143703_j65481071410829_2_alg».proof.Proof.OnlineSoftmax
import proofs.«143703_j65481071410829_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
# The two kernels' stored values, read at an index

Each value a kernel stores is a pure term of the values it loaded.  Here each such term is read at
one index, at the extended reals: the attention kernel's per-block update of its three scratch
buffers is one step of the online softmax recursion, and the projection kernel stores the two
halves of a matrix product.
-/

noncomputable section

namespace Cert.KernelIdeal.Val

open Cert.KernelIdeal Cert.KernelIdeal.Gen Idealize.ShloMosaic Idealize.ShloMosaic.ValueIdx

/-! ### The two matrix products' operand indices -/

/-- The scores' product: both operands contracted along their second axis. -/
abbrev D7 : DotDims S512x1024 S512x1024 S512x512 := dot_S512x1024_S512x1024_S512x512_1_1_0_0_n_n

theorem d7_l0 (i : S512x512.Idx) (q : D7.contr.Idx) : (D7.lhsIdx i q 0).val = (i 0).val := by
  unfold DotDims.lhsIdx
  rw [dif_neg (show ¬(0 : Fin S512x1024.rank) ∈ D7.lhsBatch by decide),
    dif_pos (show (0 : Fin S512x1024.rank) ∈ D7.lhsNonContracting by decide)]
  rfl

theorem d7_l1 (i : S512x512.Idx) (q : D7.contr.Idx) :
    (D7.lhsIdx i q 1).val = (q ⟨0, by decide⟩).val :=
  D7.lhsIdx_val_of_single rfl i q

theorem d7_r0 (i : S512x512.Idx) (q : D7.contr.Idx) : (D7.rhsIdx i q 0).val = (i 1).val := by
  unfold DotDims.rhsIdx
  rw [dif_neg (show ¬(0 : Fin S512x1024.rank) ∈ D7.rhsBatch by decide),
    dif_pos (show (0 : Fin S512x1024.rank) ∈ D7.rhsNonContracting by decide)]
  rfl

theorem d7_r1 (i : S512x512.Idx) (q : D7.contr.Idx) :
    (D7.rhsIdx i q 1).val = (q ⟨0, by decide⟩).val :=
  D7.rhsIdx_val_of_single rfl i q

/-- The scores of one block: row r of the queries against row c of the keys. -/
theorem pay7_apply (x0 x1 : Vec Ideal S512x1024 .f32) (r c : Fin 512) :
    k1_pay7 x0 x1 (ix2 r c) = ∑ j : Fin 1024, x0 (ix2 r j) * x1 (ix2 c j) := by
  unfold k1_pay7
  simp only [shapeCast_self, matmul]
  rw [Ideal.matmul_constant_zero_apply, ← Equiv.sum_comp (contrEquiv1 D7 1024 rfl rfl).symm]
  refine Finset.sum_congr rfl fun k _ => ?_
  have hk := contrEquiv1_symm_val D7 1024 rfl rfl k
  have el : D7.lhsIdx (ix2 r c) ((contrEquiv1 D7 1024 rfl rfl).symm k) = ix2 r k :=
    funext fun a => Fin.ext (by
      match a with
      | ⟨0, _⟩ => exact d7_l0 _ _
      | ⟨1, _⟩ => exact (d7_l1 _ _).trans hk)
  have er : D7.rhsIdx (ix2 r c) ((contrEquiv1 D7 1024 rfl rfl).symm k) = ix2 c k :=
    funext fun a => Fin.ext (by
      match a with
      | ⟨0, _⟩ => exact d7_r0 _ _
      | ⟨1, _⟩ => exact (d7_r1 _ _).trans hk)
  rw [el, er]

/-! ### Reductions along the key axis of one block -/

/-- The index a reduction over the second axis inserts: (r, c) over the kept coordinate r. -/
theorem lift_ix1 (r c : Fin 512) : reduces_S512x512_S512.lift (ix1 r) c = ix2 r c :=
  funext fun a => Fin.ext (by
    match a with
    | ⟨0, _⟩ => rfl
    | ⟨1, _⟩ => rfl)

/-- The f32 word of minus infinity is the bottom extended real. -/
theorem ofBits_neg_inf : Ideal.ofBits .f32 0xFF800000#32 = ⊥ := by
  simp [Ideal.ofBits, Ideal.ieee]

/-- A row maximum of a block, started from minus infinity. -/
theorem rowmax_apply (src : FVec Ideal S512x512 .f32) (hφ : FKind.Formats FTy.f32)
    (hacc : (0xFF800000#32 : BitVec 32) = 0xFF800000#32) (r : Fin 512) :
    multiReduction (F := Ideal) .maximumf [1] S512 src 0xFF800000#32 reduces_S512x512_S512 hφ hacc (ix1 r)
      = (Finset.univ : Finset (Fin 512)).fold max ⊥ (fun c => src (ix2 r c)) := by
  refine (Ideal.multiReduction_maximumf_single src 0xFF800000#32 reduces_S512x512_S512 hφ hacc
    (ix1 r)).trans ?_
  have hf : (src ∘ reduces_S512x512_S512.lift (ix1 r)) = fun c : Fin 512 => src (ix2 r c) :=
    funext fun c => congrArg src (lift_ix1 r c)
  rw [hf]
  show (Finset.univ : Finset (Fin 512)).fold max (Ideal.ofBits .f32 0xFF800000#32) _ = _
  rw [ofBits_neg_inf]

/-- A row sum of a block. -/
theorem rowsum_apply (src : FVec Ideal S512x512 .f32) (hφ : FKind.Formats FTy.f32)
    (hacc : (0x00000000#32 : BitVec 32) = 0x00000000#32) (r : Fin 512) :
    multiReduction (F := Ideal) .add [1] S512 src 0x00000000#32 reduces_S512x512_S512 hφ hacc (ix1 r)
      = ∑ c : Fin 512, src (ix2 r c) := by
  refine (Ideal.multiReduction_add_single src 0x00000000#32 reduces_S512x512_S512 hφ hacc
    (ix1 r)).trans ?_
  exact Finset.sum_congr rfl fun c _ => congrArg src (lift_ix1 r c)

/-! ### The attention kernel's per-block values -/

/-- The new running maximum of row r. -/
theorem pay8_apply (x0 x1 : Vec Ideal S512x1024 .f32) (xs0 : Vec Ideal S512x1 .f32) (r : Fin 512) :
    k1_pay8 x0 x1 xs0 (ix2 r (0 : Fin 1))
      = max (xs0 (ix2 r (0 : Fin 1)))
          ((Finset.univ : Finset (Fin 512)).fold max ⊥ (fun c => k1_pay7 x0 x1 (ix2 r c))) := by
  unfold k1_pay8
  refine (maximumf_apply _ _ _).trans ?_
  refine congrArg (max (xs0 (ix2 r (0 : Fin 1)))) ?_
  refine (Keepdims.shapeCast_a_a1_apply _ _ r).trans ?_
  exact rowmax_apply (k1_pay7 x0 x1) _ _ r

/-- The rescaling factor of row r. -/
theorem pay9_apply (x0 x1 : Vec Ideal S512x1024 .f32) (xs0 : Vec Ideal S512x1 .f32) (r : Fin 512) :
    k1_pay9 x0 x1 xs0 (ix2 r (0 : Fin 1))
      = Ideal.exp (xs0 (ix2 r (0 : Fin 1)) - k1_pay8 x0 x1 xs0 (ix2 r (0 : Fin 1))) := by
  unfold k1_pay9
  rfl

/-- The unnormalised weight of key c for row r. -/
theorem pay10_apply (x0 x1 : Vec Ideal S512x1024 .f32) (xs0 : Vec Ideal S512x1 .f32) (r c : Fin 512) :
    k1_pay10 x0 x1 xs0 (ix2 r c)
      = Ideal.exp (k1_pay7 x0 x1 (ix2 r c) - k1_pay8 x0 x1 xs0 (ix2 r (0 : Fin 1))) := by
  unfold k1_pay10
  show Ideal.exp (k1_pay7 x0 x1 (ix2 r c) - broadcastTo S512x512 (k1_pay8 x0 x1 xs0) _ (ix2 r c)) = _
  rw [Keepdims.broadcastTo_a1_ab_apply]

/-- The new running denominator of row r. -/
theorem pay11_apply (x0 x1 : Vec Ideal S512x1024 .f32) (xs0 xs1 : Vec Ideal S512x1 .f32) (r : Fin 512) :
    k1_pay11 x0 x1 xs0 xs1 (ix2 r (0 : Fin 1))
      = k1_pay9 x0 x1 xs0 (ix2 r (0 : Fin 1)) * xs1 (ix2 r (0 : Fin 1))
        + ∑ c : Fin 512, k1_pay10 x0 x1 xs0 (ix2 r c) := by
  unfold k1_pay11
  simp only [shapeCast_self]
  refine (addf_apply _ _ _).trans ?_
  refine congrArg₂ (· + ·) (mulf_apply _ _ _) ?_
  refine (Keepdims.shapeCast_a_a1_apply _ _ r).trans ?_
  exact rowsum_apply (k1_pay10 x0 x1 xs0) _ _ r

/-- The weights' product with the values: the first operand contracted along its second axis, the
second along its first. -/
abbrev D12 : DotDims S512x512 S512x1024 S512x1024 := dot_S512x512_S512x1024_S512x1024_1_0_0_1_n_n

theorem d12_l0 (i : S512x1024.Idx) (q : D12.contr.Idx) : (D12.lhsIdx i q 0).val = (i 0).val := by
  unfold DotDims.lhsIdx
  rw [dif_neg (show ¬(0 : Fin S512x512.rank) ∈ D12.lhsBatch by decide),
    dif_pos (show (0 : Fin S512x512.rank) ∈ D12.lhsNonContracting by decide)]
  rfl

theorem d12_l1 (i : S512x1024.Idx) (q : D12.contr.Idx) :
    (D12.lhsIdx i q 1).val = (q ⟨0, by decide⟩).val :=
  D12.lhsIdx_val_of_single rfl i q

theorem d12_r0 (i : S512x1024.Idx) (q : D12.contr.Idx) :
    (D12.rhsIdx i q 0).val = (q ⟨0, by decide⟩).val :=
  D12.rhsIdx_val_of_single rfl i q

theorem d12_r1 (i : S512x1024.Idx) (q : D12.contr.Idx) : (D12.rhsIdx i q 1).val = (i 1).val := by
  unfold DotDims.rhsIdx
  rw [dif_neg (show ¬(1 : Fin S512x1024.rank) ∈ D12.rhsBatch by decide),
    dif_pos (show (1 : Fin S512x1024.rank) ∈ D12.rhsNonContracting by decide)]
  rfl

/-- A product of a [512,512] block with a [512,1024] block into a zero accumulator. -/
theorem matmul12_apply {φ₁ φ₂ : FTy} (prec : Option ContractPrecision) (a : FVec Ideal S512x512 φ₁)
    (b : FVec Ideal S512x1024 φ₂) (r : Fin 512) (d : Fin 1024) :
    FloatOps.matmul D12 prec a b (constant S512x1024 .f32 0x00000000#32) (ix2 r d)
      = ∑ c : Fin 512, a (ix2 r c) * b (ix2 c d) := by
  rw [Ideal.matmul_constant_zero_apply, ← Equiv.sum_comp (contrEquiv1 D12 512 rfl rfl).symm]
  refine Finset.sum_congr rfl fun k _ => ?_
  have hk := contrEquiv1_symm_val D12 512 rfl rfl k
  have el : D12.lhsIdx (ix2 r d) ((contrEquiv1 D12 512 rfl rfl).symm k) = ix2 r k :=
    funext fun a => Fin.ext (by
      match a with
      | ⟨0, _⟩ => exact d12_l0 _ _
      | ⟨1, _⟩ => exact (d12_l1 _ _).trans hk)
  have er : D12.rhsIdx (ix2 r d) ((contrEquiv1 D12 512 rfl rfl).symm k) = ix2 k d :=
    funext fun a => Fin.ext (by
      match a with
      | ⟨0, _⟩ => exact (d12_r0 _ _).trans hk
      | ⟨1, _⟩ => exact d12_r1 _ _)
  rw [el, er]

/-- The new running numerator of row r, column d. -/
theorem pay12_apply (x0 x1 : Vec Ideal S512x1024 .f32) (x2 : Vec Ideal S512x1024 .bf16)
    (xs0 : Vec Ideal S512x1 .f32) (xs2 : Vec Ideal S512x1024 .f32) (r : Fin 512) (d : Fin 1024) :
    k1_pay12 x0 x1 x2 xs0 xs2 (ix2 r d)
      = k1_pay9 x0 x1 xs0 (ix2 r (0 : Fin 1)) * xs2 (ix2 r d)
        + ∑ c : Fin 512, k1_pay10 x0 x1 xs0 (ix2 r c) * x2 (ix2 c d) := by
  unfold k1_pay12
  simp only [shapeCast_self, matmul]
  refine (addf_apply _ _ _).trans ?_
  refine congrArg₂ (· + ·) ?_ ?_
  · refine (mulf_apply _ _ _).trans ?_
    rw [Keepdims.broadcastTo_a1_ab_apply]
  · exact matmul12_apply none _ x2 r d

/-! ### One key block's update is one step of the online softmax -/

theorem step_eq (x0 x1 : Vec Ideal S512x1024 .f32) (x2 : Vec Ideal S512x1024 .bf16)
    (xs0 xs1 : Vec Ideal S512x1 .f32) (xs2 : Vec Ideal S512x1024 .f32) (r : Fin 512) (d : Fin 1024)
    (q kk : Fin 512 → Fin 1024 → ℝ) (vv : Fin 512 → Fin 1024 → ℝ) (st : EReal × EReal × EReal)
    (h0 : ∀ j, x0 (ix2 r j) = ((q r j : ℝ) : EReal))
    (h1 : ∀ c j, x1 (ix2 c j) = ((kk c j : ℝ) : EReal))
    (h2 : ∀ c, x2 (ix2 c d) = ((vv c d : ℝ) : EReal))
    (hs0 : xs0 (ix2 r (0 : Fin 1)) = st.1) (hs1 : xs1 (ix2 r (0 : Fin 1)) = st.2.1)
    (hs2 : xs2 (ix2 r d) = st.2.2) :
    (k1_pay8 x0 x1 xs0 (ix2 r (0 : Fin 1)), k1_pay11 x0 x1 xs0 xs1 (ix2 r (0 : Fin 1)),
        k1_pay12 x0 x1 x2 xs0 xs2 (ix2 r d))
      = Cert.Attn.Online.stepE (fun c : Fin 512 => ∑ j : Fin 1024, q r j * kk c j)
          (fun c : Fin 512 => vv c d) st := by
  have h7 : ∀ c : Fin 512, k1_pay7 x0 x1 (ix2 r c)
      = ((∑ j : Fin 1024, q r j * kk c j : ℝ) : EReal) := by
    intro c
    rw [pay7_apply, Cert.Attn.Online.coe_sum]
    exact Finset.sum_congr rfl fun j _ => by rw [h0 j, h1 c j, EReal.coe_mul]
  have h8 : k1_pay8 x0 x1 xs0 (ix2 r (0 : Fin 1))
      = max st.1 ((Finset.univ : Finset (Fin 512)).fold max ⊥
          (fun c => ((∑ j : Fin 1024, q r j * kk c j : ℝ) : EReal))) := by
    rw [pay8_apply, hs0]
    exact congrArg (max st.1)
      (congrArg (fun f => (Finset.univ : Finset (Fin 512)).fold max ⊥ f) (funext h7))
  have h9 : k1_pay9 x0 x1 xs0 (ix2 r (0 : Fin 1))
      = Ideal.exp (st.1 - k1_pay8 x0 x1 xs0 (ix2 r (0 : Fin 1))) := by
    rw [pay9_apply, hs0]
  have h10 : ∀ c : Fin 512, k1_pay10 x0 x1 xs0 (ix2 r c)
      = Ideal.exp (((∑ j : Fin 1024, q r j * kk c j : ℝ) : EReal)
          - k1_pay8 x0 x1 xs0 (ix2 r (0 : Fin 1))) := by
    intro c
    rw [pay10_apply, h7 c]
  have h11 := pay11_apply x0 x1 xs0 xs1 r
  have h12 := pay12_apply x0 x1 x2 xs0 xs2 r d
  simp only [h9, h10, hs1, hs2, h2] at h11 h12
  rw [h11, h12, h8]
  rfl

/-! ### The values stored outside the block update -/

theorem pay1_eq (v : FVec Ideal S512x1024 .f32) : k1_pay1 v = v := by
  unfold k1_pay1
  exact shapeCast_self v _

theorem pay2_eq (v : FVec Ideal S512x1 .f32) : k1_pay2 v = v := by
  unfold k1_pay2
  exact shapeCast_self v _

/-- The final division: numerator over the row's denominator. -/
theorem pay3_apply (v42 : Vec Ideal S512x1024 .f32) (v43 : Vec Ideal S512x1 .f32) (r : Fin 512)
    (d : Fin 1024) :
    k1_pay3 v42 v43 (ix2 r d) = Ideal.div (v42 (ix2 r d)) (v43 (ix2 r (0 : Fin 1))) := by
  unfold k1_pay3
  refine (divf_apply _ _ _).trans ?_
  rw [Keepdims.broadcastTo_a1_ab_apply]

/-- The initial running maximum: minus infinity. -/
theorem pay4_apply (r : Fin 512) : k1_pay4 (F := Ideal) (ix2 r (0 : Fin 1)) = ⊥ := by
  unfold k1_pay4
  simp only [shapeCast_self]
  exact ofBits_neg_inf

/-- The initial running denominator: zero. -/
theorem pay5_apply (r : Fin 512) : k1_pay5 (F := Ideal) (ix2 r (0 : Fin 1)) = 0 := by
  unfold k1_pay5
  simp only [shapeCast_self]
  exact Ideal.ofBits_zero_f32

/-- The initial running numerator: zero. -/
theorem pay6_apply (r : Fin 512) (d : Fin 1024) : k1_pay6 (F := Ideal) (ix2 r d) = 0 := by
  unfold k1_pay6
  simp only [shapeCast_self]
  exact Ideal.ofBits_zero_f32

/-! ### The projection kernel -/

/-- The projection's product: the first operand contracted along its second axis, the second along
its first. -/
abbrev D0 : DotDims S512x1024 S1024x2048 S512x2048 := dot_S512x1024_S1024x2048_S512x2048_1_0_0_1_n_n

theorem d0_l0 (i : S512x2048.Idx) (q : D0.contr.Idx) : (D0.lhsIdx i q 0).val = (i 0).val := by
  unfold DotDims.lhsIdx
  rw [dif_neg (show ¬(0 : Fin S512x1024.rank) ∈ D0.lhsBatch by decide),
    dif_pos (show (0 : Fin S512x1024.rank) ∈ D0.lhsNonContracting by decide)]
  rfl

theorem d0_l1 (i : S512x2048.Idx) (q : D0.contr.Idx) :
    (D0.lhsIdx i q 1).val = (q ⟨0, by decide⟩).val :=
  D0.lhsIdx_val_of_single rfl i q

theorem d0_r0 (i : S512x2048.Idx) (q : D0.contr.Idx) :
    (D0.rhsIdx i q 0).val = (q ⟨0, by decide⟩).val :=
  D0.rhsIdx_val_of_single rfl i q

theorem d0_r1 (i : S512x2048.Idx) (q : D0.contr.Idx) : (D0.rhsIdx i q 1).val = (i 1).val := by
  unfold DotDims.rhsIdx
  rw [dif_neg (show ¬(1 : Fin S1024x2048.rank) ∈ D0.rhsBatch by decide),
    dif_pos (show (1 : Fin S1024x2048.rank) ∈ D0.rhsNonContracting by decide)]
  rfl

/-- The projection of one block of rows onto all 2048 output columns. -/
theorem pay0_1_apply (v0 : Vec Ideal S512x1024 .bf16) (v2 : Vec Ideal S1024x2048 .bf16) (r : Fin 512)
    (jj : Fin 2048) :
    k0_pay1 v0 v2 (ix2 r jj) = ∑ k : Fin 1024, v0 (ix2 r k) * v2 (ix2 k jj) := by
  unfold k0_pay1
  simp only [shapeCast_self, matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 r jj) ((contrEquiv1 D0 1024 rfl rfl).symm k) = ix2 r k :=
    funext fun a => Fin.ext (by
      match a with
      | ⟨0, _⟩ => exact d0_l0 _ _
      | ⟨1, _⟩ => exact (d0_l1 _ _).trans hk)
  have er : D0.rhsIdx (ix2 r jj) ((contrEquiv1 D0 1024 rfl rfl).symm k) = ix2 k jj :=
    funext fun a => Fin.ext (by
      match a with
      | ⟨0, _⟩ => exact (d0_r0 _ _).trans hk
      | ⟨1, _⟩ => exact d0_r1 _ _)
  rw [el, er]

/-- The first 1024 output columns, scaled: the queries. -/
theorem pay0_2_apply (v0 : Vec Ideal S512x1024 .bf16) (v2 : Vec Ideal S1024x2048 .bf16) (r : Fin 512)
    (j : Fin 1024) :
    k0_pay2 v0 v2 (ix2 r j)
      = (∑ k : Fin 1024, v0 (ix2 r k) * v2 (ix2 k (⟨j.val, by omega⟩ : Fin 2048)))
        * Ideal.ofBits .f32 0x3D000000#32 := by
  unfold k0_pay2
  refine (mulf_apply _ _ _).trans ?_
  refine congrArg₂ (· * ·) ?_ rfl
  refine (extractStridedSlice_apply _ _ _ (ix2 r j) (ix2 r (⟨j.val, by omega⟩ : Fin 2048))
    fun a => ?_).trans (pay0_1_apply v0 v2 r _)
  match a with
  | ⟨0, _⟩ => exact (Nat.zero_add _).symm
  | ⟨1, _⟩ => exact (Nat.zero_add _).symm

/-- The last 1024 output columns: the keys. -/
theorem pay0_3_apply (v0 : Vec Ideal S512x1024 .bf16) (v2 : Vec Ideal S1024x2048 .bf16) (r : Fin 512)
    (j : Fin 1024) :
    k0_pay3 v0 v2 (ix2 r j)
      = ∑ k : Fin 1024, v0 (ix2 r k) * v2 (ix2 k (⟨1024 + j.val, by omega⟩ : Fin 2048)) := by
  unfold k0_pay3
  refine (extractStridedSlice_apply _ _ _ (ix2 r j) (ix2 r (⟨1024 + j.val, by omega⟩ : Fin 2048))
    fun a => ?_).trans (pay0_1_apply v0 v2 r _)
  match a with
  | ⟨0, _⟩ => exact (Nat.zero_add _).symm
  | ⟨1, _⟩ => rfl

/-- The scale's f32 word is 2⁻⁵. -/
theorem scale_eq : Ideal.ofBits .f32 0x3D000000#32 = (((1 / 32 : ℝ)) : EReal) := by
  simp [Ideal.ofBits, Ideal.ieee]
  rw [← EReal.coe_mul]
  exact congrArg _ (by norm_num)

end Cert.KernelIdeal.Val

end
-- ==== Proof.KI.Arrays0.lean ====
/-
  What the first kernel region leaves in its two output arrays, as whole-array functions, at the exact-arithmetic instance and for
  real-valued entry contents: the first is the scaled query projection (row n of tokens · first weights, times 1/32), the second
  the key projection (row n of tokens · second weights). Each grid point's block is the restriction of that function to rows
  512·t … 512·t + 511, and the sixteen blocks cover the arrays.
-/
import proofs.«143703_j65481071410829_2_alg».proof.Proof.KI.Blocks
import proofs.«143703_j65481071410829_2_alg».proof.Proof.KI.Payload
import proofs.«143703_j65481071410829_2_alg».proof.Proof.AttnSpec
import proofs.«143703_j65481071410829_2_alg».proof.Proof.OnlineSoftmax
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- What point t writes back into the query array is the block of a whole-array function `G`, provided the body's first stored
    value at (r, j) is `G` at row 512·t + r. -/
theorem flushed0_2_of (c : Dev nD) (t : Fin cfg0.N) (G : S8192x1024.Idx → EReal)
    (hG : ∀ (r : Fin 512) (j : Fin 1024), k0_pay2 (iblk0 V c 0 t) (iblk0 V c 1 t) (ix2 r j) = G (ix2 (row0 t r) j)) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz2]
  simp only [View.ld_unit_zero (S := S512x1024) hz2, View.ld_unit_zero (S := S1024x2048) hz2]
  funext y
  obtain ⟨r, j, rfl⟩ : ∃ (r : Fin 512) (j : Fin 1024), y = ix2 r j := ⟨y 0, y 1, eq_ix2 y⟩
  show k0_pay2 (iblk0 V c 0 t) (iblk0 V c 1 t) (ix2 r j) = G (((cfg0.win 2).blk t).view.emb (ix2 r j))
  rw [emb0_2]
  exact hG r j

theorem flushed0_3_of (c : Dev nD) (t : Fin cfg0.N) (G : S8192x1024.Idx → EReal)
    (hG : ∀ (r : Fin 512) (j : Fin 1024), k0_pay3 (iblk0 V c 0 t) (iblk0 V c 1 t) (ix2 r j) = G (ix2 (row0 t r) j)) :
    (dat0 V c).flushed 3 t = ((cfg0.win 3).blk t).view.read (Elt Ideal) G := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x2048) hz2]
  funext y
  obtain ⟨r, j, rfl⟩ : ∃ (r : Fin 512) (j : Fin 1024), y = ix2 r j := ⟨y 0, y 1, eq_ix2 y⟩
  show k0_pay3 (iblk0 V c 0 t) (iblk0 V c 1 t) (ix2 r j) = G (((cfg0.win 3).blk t).view.emb (ix2 r j))
  rw [emb0_3]
  exact hG r j

section
variable (c : Dev nD) (x : Fin 8192 → Fin 1024 → ℝ) (wq wk : Fin 1024 → Fin 1024 → ℝ)
  (hx : ∀ n k, V c main_v3 (ix2 n k) = ((x n k : ℝ) : EReal))
  (hwq : ∀ (k j : Fin 1024), V c main_v2 (ix2 k (⟨j.val, by omega⟩ : Fin 2048)) = ((wq k j : ℝ) : EReal))
  (hwk : ∀ (k j : Fin 1024), V c main_v2 (ix2 k (⟨1024 + j.val, by omega⟩ : Fin 2048)) = ((wk k j : ℝ) : EReal))
include hx hwq in
/-- THE QUERY ARRAY after the first region: the scaled query projection, entry by entry. -/
theorem arrQ : (dat0 V c).arrAt 2 cfg0.N = fun i : S8192x1024.Idx => ((Cert.Attn.projQ x wq (i 0) (i 1) : ℝ) : EReal) := by
  refine (dat0 V c).arrAt_eq_of_cover 2 _ (fun t _ => flushed0_2_of V c t _ fun r j => ?_) cover0_arr2
  rw [pay0_2_apply]
  simp only [blk0_0_read, blk0_1_read, hx, hwq, scale_eq]
  show _ = ((Cert.Attn.projQ x wq (row0 t r) j : ℝ) : EReal)
  unfold Cert.Attn.projQ
  rw [EReal.coe_mul, Cert.Attn.Online.coe_sum]
  simp only [EReal.coe_mul]

include hx hwk in
/-- THE KEY ARRAY after the first region: the key projection, entry by entry. -/
theorem arrK : (dat0 V c).arrAt 3 cfg0.N = fun i : S8192x1024.Idx => ((Cert.Attn.projK x wk (i 0) (i 1) : ℝ) : EReal) := by
  refine (dat0 V c).arrAt_eq_of_cover 3 _ (fun t _ => flushed0_3_of V c t _ fun r j => ?_) cover0_arr3
  rw [pay0_3_apply]
  simp only [blk0_0_read, blk0_1_read, hx, hwk]
  show _ = ((Cert.Attn.projK x wk (row0 t r) j : ℝ) : EReal)
  unfold Cert.Attn.projK
  rw [Cert.Attn.Online.coe_sum]
  simp only [EReal.coe_mul]
end

end Cert.KernelIdeal.Val

end
-- ==== Proof.KI.Pieces.lean ====
/-
  What each case of the attention kernel's body leaves in each buffer, as the named payload of the case's inputs.

  In every case the last store into a buffer covers it, so the buffer reads as that store's payload; the payload's
  operands are the whole input blocks and, for the three running quantities, either what the position before left
  (middle and last key block) or the reset values just stored (first key block).
-/
import proofs.«143703_j65481071410829_2_alg».proof.Proof.KI.R1
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block access. -/
theorem hz : (![0, 0] : Fin 2 → Nat) = fun _ => 0 := funext fun a => by fin_cases a <;> rfl

/-! ## Middle key block: the running quantities are updated from what the position before left -/

/-- Middle key block: the running maximum becomes the maximum of the old one and the block's row maxima. -/
theorem sout1_B_0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    sout1_B_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S512x1) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- Middle key block: the running denominator, rescaled, plus the block's row sums of exponentials. -/
theorem sout1_B_1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    sout1_B_1 c i arg2 harg2 arg3 harg3 arg4 harg4 arg5 harg5 arg6 harg6 arg7 harg7 arg8 harg8 hc0 hc1 x0 x1 x2 xs0 xs1 xs2 = k1_pay11 x0 x1 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S512x1) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- Middle key block: the running numerator, rescaled, plus the block's weighted values. -/
theorem sout1_B_2_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    sout1_B_2 c i arg2 harg2 arg3 harg3 arg4 harg4 arg5 harg5 arg6 harg6 arg7 harg7 arg8 harg8 hc0 hc1 x0 x1 x2 xs0 xs1 xs2 = k1_pay1 (k1_pay12 x0 x1 x2 xs0 xs2) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S512x1024) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-! ## Last key block: the same updates, and the quotient is stored into the output block -/

/-- Last key block: the running maximum. -/
theorem sout1_C_0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    sout1_C_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S512x1) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- Last key block: the running denominator. -/
theorem sout1_C_1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    sout1_C_1 c i arg2 harg2 arg3 harg3 arg4 harg4 arg5 harg5 arg6 harg6 arg7 harg7 arg8 harg8 hc0 hc1 x0 x1 x2 xs0 xs1 xs2 = k1_pay11 x0 x1 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S512x1) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- Last key block: the running numerator. -/
theorem sout1_C_2_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    sout1_C_2 c i arg2 harg2 arg3 harg3 arg4 harg4 arg5 harg5 arg6 harg6 arg7 harg7 arg8 harg8 hc0 hc1 x0 x1 x2 xs0 xs1 xs2 = k1_pay1 (k1_pay12 x0 x1 x2 xs0 xs2) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S512x1024) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- Last key block: the output block is the updated numerator divided by the updated denominator. -/
theorem out1_C_3_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    out1_C_3 c i arg2 harg2 arg3 harg3 arg4 harg4 arg5 harg5 arg6 harg6 arg7 harg7 arg8 harg8 hc0 hc1 x0 x1 x2 xs0 xs1 xs2 = k1_pay3 (k1_pay1 (k1_pay12 x0 x1 x2 xs0 xs2)) (k1_pay11 x0 x1 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S512x1024) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-! ## First key block: the running quantities are reset (maximum −∞, denominator 0, numerator 0), then updated -/

/-- First key block: the running maximum, from the reset value. -/
theorem sout1_A_0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    sout1_A_0 c i arg2 harg2 arg3 harg3 arg4 harg4 arg5 harg5 arg6 harg6 arg7 harg7 arg8 harg8 hc0 hc1 x0 x1 x2 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S512x1) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- First key block: the running denominator, from the reset values. -/
theorem sout1_A_1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    sout1_A_1 c i arg2 harg2 arg3 harg3 arg4 harg4 arg5 harg5 arg6 harg6 arg7 harg7 arg8 harg8 hc0 hc1 x0 x1 x2 = k1_pay11 x0 x1 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S512x1) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

/-- First key block: the running numerator, from the reset values. -/
theorem sout1_A_2_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    sout1_A_2 c i arg2 harg2 arg3 harg3 arg4 harg4 arg5 harg5 arg6 harg6 arg7 harg7 arg8 harg8 hc0 hc1 x0 x1 x2 = k1_pay1 (k1_pay12 x0 x1 x2 k1_pay4 k1_pay6) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S512x1024) hz]
  simp only [View.readCov_unit_zero (S := S512x1) _ hz, View.readCov_unit_zero (S := S512x1024) _ hz, View.readAt_eq_ld,
    harg2.read_unread, harg3.read_unread, harg4.read_unread, harg6.read_unread, harg7.read_unread, harg8.read_unread,
    View.ld_unit_zero (S := S512x1024) hz, View.ld_unit_zero (S := S512x1) hz]

end Cert.KernelIdeal.Val

end
-- ==== Proof.KI.Induct.lean ====
/-
  The induction over key blocks.

  For one query row, the three running quantities the attention kernel carries from one grid position to the next
  (maximum, denominator, numerator) are, after the position whose key block is ki, the online-softmax recursion run
  over the first ki + 1 key blocks; at the last key block the stored quotient numerator / denominator is therefore
  the softmax-weighted average of the values over all 8192 keys.
-/
import proofs.«143703_j65481071410829_2_alg».proof.Proof.KI.Pieces
import proofs.«143703_j65481071410829_2_alg».proof.Proof.KI.Blocks
import proofs.«143703_j65481071410829_2_alg».proof.Proof.KI.Payload
import proofs.«143703_j65481071410829_2_alg».proof.Proof.OnlineSoftmax
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Attn

/-! ## The key block of a grid position -/

/-- The key block of position t. -/
def kb (t : Fin cfg1.N) : Fin 16 := ⟨t.val % 16, Nat.mod_lt _ (by norm_num)⟩

theorem keyOf_eq_blk (t : Fin cfg1.N) (cc : Fin 512) : keyOf t cc = Online.blk (kb t) cc := rfl

section

variable (V : (c : Dev nD) → (b : Ref sig .tc) → Buf (Elt Ideal) ((c : Thread nD τ).loc b)) (c : Dev nD)
variable (Qr Kr Xr : Fin 8192 → Fin 1024 → ℝ)

/-- The scores of query row n against the keys, by key block and column. -/
abbrev sc (n : Fin 8192) : Fin 16 → Fin 512 → ℝ := fun b cc => ∑ j : Fin 1024, Qr n j * Kr (Online.blk b cc) j
/-- Column d of the values, by key block and column. -/
abbrev vl (d : Fin 1024) : Fin 16 → Fin 512 → ℝ := fun b cc => Xr (Online.blk b cc) d

variable (hq : ∀ (t : Fin cfg1.N) (r : Fin 512) (j : Fin 1024),
    iblk1 V c 0 t (ix2 r j) = ((Qr (rowOf t r) j : ℝ) : EReal))
variable (hk : ∀ (t : Fin cfg1.N) (cc : Fin 512) (j : Fin 1024),
    iblk1 V c 1 t (ix2 cc j) = ((Kr (keyOf t cc) j : ℝ) : EReal))
variable (hx : ∀ (t : Fin cfg1.N) (cc : Fin 512) (d : Fin 1024),
    iblk1 V c 2 t (ix2 cc d) = ((Xr (keyOf t cc) d : ℝ) : EReal))

include hq hk hx

/-- One position's update of the three running quantities, at row r and column d, is one step of the recursion on
    the position's key block, whatever state st the running quantities were found in. -/
theorem step_at (t : Fin cfg1.N) (r : Fin 512) (d : Fin 1024)
    (xs0 xs1 : Vec Ideal S512x1 .f32) (xs2 : Vec Ideal S512x1024 .f32) (st : EReal × EReal × EReal)
    (hs0 : xs0 (ix2 r (0 : Fin 1)) = st.1) (hs1 : xs1 (ix2 r (0 : Fin 1)) = st.2.1) (hs2 : xs2 (ix2 r d) = st.2.2) :
    (k1_pay8 (iblk1 V c 0 t) (iblk1 V c 1 t) xs0 (ix2 r (0 : Fin 1)),
      k1_pay11 (iblk1 V c 0 t) (iblk1 V c 1 t) xs0 xs1 (ix2 r (0 : Fin 1)),
      k1_pay12 (iblk1 V c 0 t) (iblk1 V c 1 t) (iblk1 V c 2 t) xs0 xs2 (ix2 r d))
      = Online.stepE (sc Qr Kr (rowOf t r) (kb t)) (vl Xr d (kb t)) st :=
  step_eq (iblk1 V c 0 t) (iblk1 V c 1 t) (iblk1 V c 2 t) xs0 xs1 xs2 r d
    (fun r' j => Qr (rowOf t r') j) (fun cc j => Kr (keyOf t cc) j) (fun cc d' => Xr (keyOf t cc) d') st
    (fun j => hq t r j) (fun cc j => hk t cc j) (fun cc => hx t cc d) hs0 hs1 hs2

/-- After position n the running maximum, denominator and numerator at row r (and column d) are the recursion run
    over the first n % 16 + 1 key blocks. -/
theorem state_aux : ∀ (n : ℕ) (hn : n < cfg1.N) (r : Fin 512) (d : Fin 1024),
    ((outsAt1 V c n hn).2.1 (ix2 r (0 : Fin 1)), (outsAt1 V c n hn).2.2.1 (ix2 r (0 : Fin 1)),
        (outsAt1 V c n hn).2.2.2 (ix2 r d))
      = Online.runE (B := 16) (C := 512) (sc Qr Kr (rowOf ⟨n, hn⟩ r)) (vl Xr d) (n % 16 + 1) := by
  intro n
  induction n using Nat.strong_induction_on with
  | _ n ih =>
    intro hn r d
    have hlt : n % 16 < 16 := Nat.mod_lt _ (by norm_num)
    by_cases h0 : n % 16 = 0
    · -- first key block: the running quantities are reset, then updated
      have h1 : ¬n % 16 = 15 := by omega
      have hc0 : cond1_0 (grid1.coords ⟨n, hn⟩) := (hcond1_0 ⟨n, hn⟩).mpr h0
      have hc1 : ¬cond1_1 (grid1.coords ⟨n, hn⟩) := fun h => h1 ((hcond1_1 ⟨n, hn⟩).mp h)
      rw [outsAt1_A V c ⟨n, hn⟩ h0 h1]
      dsimp only
      rw [sout1_A_0_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩),
        sout1_A_1_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩),
        sout1_A_2_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩),
        pay2_eq, pay1_eq]
      refine (step_at V c Qr Kr Xr hq hk hx ⟨n, hn⟩ r d (k1_pay4 (F := Ideal)) (k1_pay5 (F := Ideal)) (k1_pay6 (F := Ideal))
        (⊥, 0, 0) (pay4_apply r) (pay5_apply r) (pay6_apply r d)).trans ?_
      rw [Online.runE_succ _ _ (n % 16) hlt]
      have e0 : Online.runE (B := 16) (C := 512) (sc Qr Kr (rowOf ⟨n, hn⟩ r)) (vl Xr d) (n % 16) = (⊥, 0, 0) := by
        rw [h0]; rfl
      rw [e0]
      rfl
    · -- a later key block: the running quantities are what the position before left
      have hn' : n - 1 < cfg1.N := Nat.lt_of_le_of_lt (Nat.sub_le _ _) hn
      have IH := ih (n - 1) (by omega) hn' r d
      have e1 : rowOf ⟨n - 1, hn'⟩ r = rowOf ⟨n, hn⟩ r := Fin.ext (by
        show 512 * ((n - 1) / 16) + r.val = 512 * (n / 16) + r.val
        omega)
      have e2 : (n - 1) % 16 + 1 = n % 16 := by omega
      rw [e1, e2] at IH
      have hc0 : ¬cond1_0 (grid1.coords ⟨n, hn⟩) := fun h => h0 ((hcond1_0 ⟨n, hn⟩).mp h)
      by_cases h1 : n % 16 = 15
      · have hc1 : cond1_1 (grid1.coords ⟨n, hn⟩) := (hcond1_1 ⟨n, hn⟩).mpr h1
        rw [outsAt1_C V c ⟨n, hn⟩ h0 h1]
        dsimp only
        rw [sout1_C_0_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩) (outsAt1 V c (n - 1) hn').2.1 (outsAt1 V c (n - 1) hn').2.2.1 (outsAt1 V c (n - 1) hn').2.2.2,
          sout1_C_1_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩) (outsAt1 V c (n - 1) hn').2.1 (outsAt1 V c (n - 1) hn').2.2.1 (outsAt1 V c (n - 1) hn').2.2.2,
          sout1_C_2_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩) (outsAt1 V c (n - 1) hn').2.1 (outsAt1 V c (n - 1) hn').2.2.1 (outsAt1 V c (n - 1) hn').2.2.2,
          pay2_eq, pay1_eq]
        refine (step_at V c Qr Kr Xr hq hk hx ⟨n, hn⟩ r d (outsAt1 V c (n - 1) hn').2.1 (outsAt1 V c (n - 1) hn').2.2.1 (outsAt1 V c (n - 1) hn').2.2.2 _
          (congrArg (fun p => p.1) IH) (congrArg (fun p => p.2.1) IH) (congrArg (fun p => p.2.2) IH)).trans ?_
        rw [Online.runE_succ _ _ (n % 16) hlt]
        rfl
      · have hc1 : ¬cond1_1 (grid1.coords ⟨n, hn⟩) := fun h => h1 ((hcond1_1 ⟨n, hn⟩).mp h)
        rw [outsAt1_B V c ⟨n, hn⟩ h0 h1]
        dsimp only
        rw [sout1_B_0_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩) (outsAt1 V c (n - 1) hn').2.1 (outsAt1 V c (n - 1) hn').2.2.1 (outsAt1 V c (n - 1) hn').2.2.2,
          sout1_B_1_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩) (outsAt1 V c (n - 1) hn').2.1 (outsAt1 V c (n - 1) hn').2.2.1 (outsAt1 V c (n - 1) hn').2.2.2,
          sout1_B_2_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) hc0 hc1 (iblk1 V c 0 ⟨n, hn⟩) (iblk1 V c 1 ⟨n, hn⟩) (iblk1 V c 2 ⟨n, hn⟩) (outsAt1 V c (n - 1) hn').2.1 (outsAt1 V c (n - 1) hn').2.2.1 (outsAt1 V c (n - 1) hn').2.2.2,
          pay2_eq, pay1_eq]
        refine (step_at V c Qr Kr Xr hq hk hx ⟨n, hn⟩ r d (outsAt1 V c (n - 1) hn').2.1 (outsAt1 V c (n - 1) hn').2.2.1 (outsAt1 V c (n - 1) hn').2.2.2 _
          (congrArg (fun p => p.1) IH) (congrArg (fun p => p.2.1) IH) (congrArg (fun p => p.2.2) IH)).trans ?_
        rw [Online.runE_succ _ _ (n % 16) hlt]
        rfl

/-- After position t the three running quantities at row r (and column d) are the recursion run over the first
    t % 16 + 1 key blocks, on the scores of query row rowOf t r. -/
theorem state_eq (t : Fin cfg1.N) (r : Fin 512) (d : Fin 1024) :
    ((outsAt1 V c t.val t.isLt).2.1 (ix2 r (0 : Fin 1)), (outsAt1 V c t.val t.isLt).2.2.1 (ix2 r (0 : Fin 1)),
        (outsAt1 V c t.val t.isLt).2.2.2 (ix2 r d))
      = Online.runE (B := 16) (C := 512)
          (fun b cc => ∑ j : Fin 1024, Qr (rowOf t r) j * Kr (Online.blk b cc) j)
          (fun b cc => Xr (Online.blk b cc) d) (t.val % 16 + 1) :=
  state_aux V c Qr Kr Xr hq hk hx t.val t.isLt r d

/-- At a last key block the output block at (r, d) is the softmax-weighted average of column d of the values over all
    keys, the softmax of query row rowOf t r's scores taken with their maximum subtracted. -/
theorem out_eq (t : Fin cfg1.N) (h15 : t.val % 16 = 15) (r : Fin 512) (d : Fin 1024) :
    (outsAt1 V c t.val t.isLt).1 (ix2 r d)
      = (((∑ m : Fin 8192, Real.exp ((∑ j : Fin 1024, Qr (rowOf t r) j * Kr m j)
              - (Finset.univ : Finset (Fin 8192)).sup' ⟨0, Finset.mem_univ _⟩ (fun m => ∑ j : Fin 1024, Qr (rowOf t r) j * Kr m j)) * Xr m d)
          / (∑ m : Fin 8192, Real.exp ((∑ j : Fin 1024, Qr (rowOf t r) j * Kr m j)
              - (Finset.univ : Finset (Fin 8192)).sup' ⟨0, Finset.mem_univ _⟩ (fun m => ∑ j : Fin 1024, Qr (rowOf t r) j * Kr m j))) : ℝ) : EReal) := by
  have h0 : ¬t.val % 16 = 0 := by omega
  have hn' : t.val - 1 < cfg1.N := Nat.lt_of_le_of_lt (Nat.sub_le _ _) t.isLt
  have hc0 : ¬cond1_0 (grid1.coords t) := fun h => h0 ((hcond1_0 t).mp h)
  have hc1 : cond1_1 (grid1.coords t) := (hcond1_1 t).mpr h15
  have hst := state_eq V c Qr Kr Xr hq hk hx t r d
  rw [h15] at hst
  have e1 := congrArg (fun p => p.2.1) hst
  have e2 := congrArg (fun p => p.2.2) hst
  rw [outsAt1_C V c t h0 h15] at e1 e2 ⊢
  dsimp only at e1 e2 ⊢
  rw [sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) (outsAt1 V c (t.val - 1) hn').2.1 (outsAt1 V c (t.val - 1) hn').2.2.1 (outsAt1 V c (t.val - 1) hn').2.2.2] at e1
  rw [sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) (outsAt1 V c (t.val - 1) hn').2.1 (outsAt1 V c (t.val - 1) hn').2.2.1 (outsAt1 V c (t.val - 1) hn').2.2.2] at e2
  rw [out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) (outsAt1 V c (t.val - 1) hn').2.1 (outsAt1 V c (t.val - 1) hn').2.2.1 (outsAt1 V c (t.val - 1) hn').2.2.2, pay3_apply, e1, e2]
  exact Online.online_softmax (fun m => ∑ j : Fin 1024, Qr (rowOf t r) j * Kr m j) (fun m => Xr m d)

end

end Cert.KernelIdeal.Val

end
-- ==== Proof.KI.Final.lean ====
/-
  The attention output array after the whole program, at the exact-arithmetic instance and for real-valued arguments: entry (n, d)
  is the softmax-weighted average of column d of the tokens, the weights those of query row n against all 8192 keys.
  The chain: the host stage gives the kernels the arguments themselves; the first region leaves the scaled query projection
  and the key projection; in the second region each query block's sixteen key-block steps are the online-softmax recurrence,
  whose last step stores numerator / denominator; the sixteen stored blocks cover the array.
-/
import proofs.«143703_j65481071410829_2_alg».proof.Proof.KI.HostStage
import proofs.«143703_j65481071410829_2_alg».proof.Proof.KI.Arrays0
import proofs.«143703_j65481071410829_2_alg».proof.Proof.KI.Induct
import proofs.«143703_j65481071410829_2_alg».proof.Proof.AttnSpec

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Idealize.ShloMosaic.ValueIdx

/-- THE RESULT ARRAY of the kernel program. -/
theorem final (m : (ℓ : Loc nD τ sig) → Buf (Elt Ideal) ℓ) (ρ : Dev nD → PrngReg) (c : Dev nD)
    (x : Fin 8192 → Fin 1024 → ℝ) (wq wk : Fin 1024 → Fin 1024 → ℝ)
    (h0 : ∀ k j, m ((c : Thread nD τ).loc main_arg0) (ix2 k j) = ((wq k j : ℝ) : EReal))
    (h1 : ∀ k j, m ((c : Thread nD τ).loc main_arg1) (ix2 k j) = ((wk k j : ℝ) : EReal))
    (h2 : ∀ n k, m ((c : Thread nD τ).loc main_arg2) (ix2 n k) = ((x n k : ℝ) : EReal)) :
    (dat1 (V2 (F := Ideal) m ρ) c).arrAt 3 cfg1.N
      = fun i : S8192x1024.Idx => ((Cert.Attn.attn x wq wk (i 0) (i 1) : ℝ) : EReal) := by
  -- what the first region is entered with
  have hx1 : ∀ n k, V1 (F := Ideal) m ρ c main_v3 (ix2 n k) = ((x n k : ℝ) : EReal) := fun n k => (V1_v3 m ρ c n k).trans (h2 n k)
  have hwq1 : ∀ (k j : Fin 1024), V1 (F := Ideal) m ρ c main_v2 (ix2 k (⟨j.val, by omega⟩ : Fin 2048)) = ((wq k j : ℝ) : EReal) :=
    fun k j => (V1_v2_left m ρ c k j).trans (h0 k j)
  have hwk1 : ∀ (k j : Fin 1024), V1 (F := Ideal) m ρ c main_v2 (ix2 k (⟨1024 + j.val, by omega⟩ : Fin 2048)) = ((wk k j : ℝ) : EReal) :=
    fun k j => (V1_v2_right m ρ c k j).trans (h1 k j)
  -- what the second region is entered with
  have hQ : ∀ n j, V2 (F := Ideal) m ρ c main_v4_0 (ix2 n j) = ((Cert.Attn.projQ x wq n j : ℝ) : EReal) := fun n j =>
    congrFun ((W2_arr m ρ c 2).trans (arrQ (V1 m ρ) c x wq hx1 hwq1)) (ix2 n j)
  have hK : ∀ n j, V2 (F := Ideal) m ρ c main_v4_1 (ix2 n j) = ((Cert.Attn.projK x wk n j : ℝ) : EReal) := fun n j =>
    congrFun ((W2_arr m ρ c 3).trans (arrK (V1 m ρ) c x wk hx1 hwk1)) (ix2 n j)
  have hX : ∀ n k, V2 (F := Ideal) m ρ c main_v3 (ix2 n k) = ((x n k : ℝ) : EReal) := fun n k =>
    (congrFun ((W2_arr m ρ c 0).trans (((dat0 (V1 m ρ) c).arrAt_in 0 rfl _).trans (A_eq0 (V1 m ρ) c 0))) (ix2 n k)).trans (hx1 n k)
  -- the blocks the second region reads
  have hq : ∀ (t : Fin cfg1.N) (r : Fin 512) (j : Fin 1024), iblk1 (V2 m ρ) c 0 t (ix2 r j) = ((Cert.Attn.projQ x wq (rowOf t r) j : ℝ) : EReal) :=
    fun t r j => (blk1_0_read (V2 m ρ) c t r j).trans (hQ _ j)
  have hk : ∀ (t : Fin cfg1.N) (cc : Fin 512) (j : Fin 1024), iblk1 (V2 m ρ) c 1 t (ix2 cc j) = ((Cert.Attn.projK x wk (keyOf t cc) j : ℝ) : EReal) :=
    fun t cc j => (blk1_1_read (V2 m ρ) c t cc j).trans (hK _ j)
  have hxb : ∀ (t : Fin cfg1.N) (cc : Fin 512) (d : Fin 1024), iblk1 (V2 m ρ) c 2 t (ix2 cc d) = ((x (keyOf t cc) d : ℝ) : EReal) :=
    fun t cc d => (blk1_2_read (V2 m ρ) c t cc d).trans (hX _ d)
  -- the stored blocks cover the array; each is the specification's block
  refine (dat1 (V2 m ρ) c).arrAt_eq_of_cover 3 _ (fun t ht => ?_) cover1_arr3
  have h15 : t.val % 16 = 15 := (flush1_3 t).mp ht
  show (cfg1.win 3).cut (grid1.coords t) ((dat1 (V2 m ρ) c).after 3 t) = _
  rw [after1_3]
  funext y
  obtain ⟨r, d, rfl⟩ : ∃ (r : Fin 512) (d : Fin 1024), y = ix2 r d := ⟨y 0, y 1, eq_ix2 y⟩
  show (outsAt1 (V2 m ρ) c t.val t.isLt).1 (ix2 r d) = (fun i : S8192x1024.Idx => ((Cert.Attn.attn x wq wk (i 0) (i 1) : ℝ) : EReal)) (((cfg1.win 3).blk t).view.emb (ix2 r d))
  rw [emb1_3]
  exact (out_eq (V2 m ρ) c (Cert.Attn.projQ x wq) (Cert.Attn.projK x wk) x hq hk hxb t h15 r d).trans rfl

end Cert.KernelIdeal.Val

end
-- ==== Proof.lean ====
/-
  The certificate's claims, assembled.

  The program is single-head attention of a token matrix x (8192 × 1024) against itself, with two square weight
  matrices wq, wk (1024 × 1024): queries are the rows of x·wq scaled by 1/32, keys the rows of x·wk, the weights
  of a query over the keys are the softmax of its scores, and the result is the weighted average of the rows of
  x (`Cert.Attn.attn`). The kernel computes it in two grid regions — the two projections by one matrix product,
  then a running maximum, a running sum and a running weighted sum over blocks of keys, normalised at the last
  block —; the reference computes it by whole-matrix operations.

  * The word-level kernel and its reading over the extended reals each run to the end, fault nowhere and leave the
    three argument arrays as launched: the run of the program's segments (a host stretch and two regions) read at
    the arguments.
  * The reference likewise: its run, with the result dropped.
  * No operation was rewritten in passing to the extended reals, so there is nothing to preserve.
  * Under the precondition every entry of the three arguments is a real number. Then the kernel's result array is,
    index by index, `attn` of those reals (the kernel's run read at the result array, and the value of what region
    1's write-backs leave there), and so is the reference's (its run, and its composed term read at an index), from
    memories that agree on the arguments: the two results are one array.
-/
import proofs.«143703_j65481071410829_2_alg».proof.Defs
import proofs.«143703_j65481071410829_2_alg».proof.Proof.Gen.Kernel
import proofs.«143703_j65481071410829_2_alg».proof.Proof.Gen.Kernel.Skeleton
import proofs.«143703_j65481071410829_2_alg».proof.Proof.Gen.Kernel.Launch
import proofs.«143703_j65481071410829_2_alg».proof.Proof.Gen.Kernel.Regions
import proofs.«143703_j65481071410829_2_alg».proof.Proof.Gen.Kernel.Points
import proofs.«143703_j65481071410829_2_alg».proof.Proof.Gen.KernelIdeal
import proofs.«143703_j65481071410829_2_alg».proof.Proof.Gen.KernelIdeal.Skeleton
import proofs.«143703_j65481071410829_2_alg».proof.Proof.Gen.KernelIdeal.Launch
import proofs.«143703_j65481071410829_2_alg».proof.Proof.Gen.KernelIdeal.Regions
import proofs.«143703_j65481071410829_2_alg».proof.Proof.Gen.KernelIdeal.Points
import proofs.«143703_j65481071410829_2_alg».proof.Proof.Gen.ReferenceIdeal
import proofs.«143703_j65481071410829_2_alg».proof.Proof.Gen.ReferenceIdeal.Run
import proofs.«143703_j65481071410829_2_alg».proof.Proof.Gen.ReferenceIdeal.Read
import proofs.«143703_j65481071410829_2_alg».proof.Proof.Gen.Pre_finite_inputs
import proofs.«143703_j65481071410829_2_alg».proof.Proof.AttnSpec
import proofs.«143703_j65481071410829_2_alg».proof.Proof.Finite
import proofs.«143703_j65481071410829_2_alg».proof.Proof.RefValue
import proofs.«143703_j65481071410829_2_alg».proof.Proof.K.Run
import proofs.«143703_j65481071410829_2_alg».proof.Proof.KI.Run
import proofs.«143703_j65481071410829_2_alg».proof.Proof.KI.Final
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

/-- The word-level kernel runs to the end and leaves its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten in passing to the extended reals. -/
theorem preserves : Cert.preserves_Kernel_KernelIdeal := trivial

/-! ## The two results are one array -/

/-- Under the precondition the three arguments hold real numbers on every device; with `x`, `wq`, `wk` those reals,
    the kernel's result array is `attn x wq wk` index by index (its run read at the result array, then the value of
    what region 1 leaves there) and so is the reference's (its run, its composed term read at an index, the
    arguments carried over by the agreement of the two memories). -/
theorem algebraic : Cert.algebraic_KernelIdeal_ReferenceIdeal := by
  intro m ρ m' ρ' hpre hagree
  -- the real numbers the arguments hold, device by device
  have hr := fun c => Cert.Attn.Fin.reals_of_pre _ _ _ (hpre c)
  choose wq hwq using fun c => (hr c).1
  choose wk hwk using fun c => (hr c).2.1
  choose x hx using fun c => (hr c).2.2
  refine ⟨fun c => fun i : Cert.KernelIdeal.S8192x1024.Idx => ((Cert.Attn.attn (x c) (wq c) (wk c) (i 0) (i 1) : ℝ) : EReal), ?_, ?_⟩
  · -- the kernel: what its run leaves in the result array has that value
    exact (θ_run Cert.KernelIdeal.defs _ _).mono
      (fun r h c => ⟨(h c).1.trans (Cert.KernelIdeal.Val.final m ρ c (x c) (wq c) (wk c) (hwq c) (hwk c) (hx c)), (h c).2⟩)
      (Cert.KernelIdeal.Hand.run_value m ρ)
  · -- the reference: its composed term, read at an index, of arguments that are the kernel's
    refine (θ_run Cert.ReferenceIdeal.defs _ _).mono (fun r h c => ⟨?_, (h c).2⟩)
      (Cert.ReferenceIdeal.Value.run (F := Ideal) m' ρ')
    rw [(h c).1, Cert.ReferenceIdeal.Read.val_main_v16_eq]
    funext i
    have hv := Cert.Attn.Ref.ref_eq _ _ _ (wq c) (wk c) (x c)
      (fun k j => (congrFun (hagree c).1 (ix2 k j)).trans (hwq c k j))
      (fun k j => (congrFun (hagree c).2.1 (ix2 k j)).trans (hwk c k j))
      (fun n k => (congrFun (hagree c).2.2 (ix2 n k)).trans (hx c n k))
      (i 0) (i 1)
    exact (congrArg (Cert.ReferenceIdeal.Read.val_main_v16 (F := Ideal) _ _ _) (ValueIdx.eq_ix2 i)).trans hv

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
